-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x256x256 : Shape := ⟨4, ![2, 256, 256, 256]⟩
abbrev S_ : Shape := ⟨0, ![]⟩

class Facts : Prop where
  bcast_S_S2x256x256x256 : S_.BroadcastsInDim S2x256x256x256 (![] : Fin 0 → Fin S2x256x256x256.rank)
  reducesTo_S2x256x256x256_S_d0_1_2_3 : S2x256x256x256.ReducesTo [0, 1, 2, 3] S_
  h_S_ : 0 < S_.numel

variable [Facts]

def fn_part1 {F : FTy → Type} [FloatOps F] (main_arg1 : FVec F S2x256x256x256 .f32) (main_v12 : IVec S_ 1) (main_v15 : IVec S_ 1) : IVec S_ 1 :=
  let main_v16 : IVec S_ 1 := andi main_v12 main_v15
  let main_cst_6 : FVec F S_ .f32 := constant S_ .f32 0x00000000#32
  let main_v17 : FVec F S2x256x256x256 .f32 := broadcastInDim S2x256x256x256 ![] bcast_S_S2x256x256x256 main_cst_6
  let main_v18 : IVec S2x256x256x256 1 := cmpf .oge main_arg1 main_v17
  let main_c_7 : IVec S_ 1 := constantI S_ 1 1#1
  let main_v19 : IVec S_ 1 := (fun x v => Host.reduce IntOp.andi x v reducesTo_S2x256x256x256_S_d0_1_2_3 h_S_) main_v18 main_c_7
  let main_v20 : IVec S_ 1 := andi main_v16 main_v19
  let main_cst_8 : FVec F S_ .f32 := constant S_ .f32 0x437F0000#32
  let main_v21 : FVec F S2x256x256x256 .f32 := broadcastInDim S2x256x256x256 ![] bcast_S_S2x256x256x256 main_cst_8
  let main_v22 : IVec S2x256x256x256 1 := cmpf .ole main_arg1 main_v21
  let main_c_9 : IVec S_ 1 := constantI S_ 1 1#1
  let main_v23 : IVec S_ 1 := (fun x v => Host.reduce IntOp.andi x v reducesTo_S2x256x256x256_S_d0_1_2_3 h_S_) main_v22 main_c_9
  let main_v24 : IVec S_ 1 := andi main_v20 main_v23
  main_v24

def fn {F : FTy → Type} [FloatOps F] (main_arg0 : FVec F S2x256x256x256 .f32) (main_arg1 : FVec F S2x256x256x256 .f32) : IVec S_ 1 :=
  let main_v0 : FVec F S2x256x256x256 .f32 := Host.absf main_arg0
  let main_cst : FVec F S_ .f32 := constant S_ .f32 0x7F800000#32
  let main_v1 : FVec F S2x256x256x256 .f32 := broadcastInDim S2x256x256x256 ![] bcast_S_S2x256x256x256 main_cst
  let main_v2 : IVec S2x256x256x256 1 := cmpf .olt main_v0 main_v1
  let main_c : IVec S_ 1 := constantI S_ 1 1#1
  let main_v3 : IVec S_ 1 := (fun x v => Host.reduce IntOp.andi x v reducesTo_S2x256x256x256_S_d0_1_2_3 h_S_) main_v2 main_c
  let main_v4 : FVec F S2x256x256x256 .f32 := Host.absf main_arg1
  let main_cst_0 : FVec F S_ .f32 := constant S_ .f32 0x7F800000#32
  let main_v5 : FVec F S2x256x256x256 .f32 := broadcastInDim S2x256x256x256 ![] bcast_S_S2x256x256x256 main_cst_0
  let main_v6 : IVec S2x256x256x256 1 := cmpf .olt main_v4 main_v5
  let main_c_1 : IVec S_ 1 := constantI S_ 1 1#1
  let main_v7 : IVec S_ 1 := (fun x v => Host.reduce IntOp.andi x v reducesTo_S2x256x256x256_S_d0_1_2_3 h_S_) main_v6 main_c_1
  let main_v8 : IVec S_ 1 := andi main_v3 main_v7
  let main_cst_2 : FVec F S_ .f32 := constant S_ .f32 0x00000000#32
  let main_v9 : FVec F S2x256x256x256 .f32 := broadcastInDim S2x256x256x256 ![] bcast_S_S2x256x256x256 main_cst_2
  let main_v10 : IVec S2x256x256x256 1 := cmpf .oge main_arg0 main_v9
  let main_c_3 : IVec S_ 1 := constantI S_ 1 1#1
  let main_v11 : IVec S_ 1 := (fun x v => Host.reduce IntOp.andi x v reducesTo_S2x256x256x256_S_d0_1_2_3 h_S_) main_v10 main_c_3
  let main_v12 : IVec S_ 1 := andi main_v8 main_v11
  let main_cst_4 : FVec F S_ .f32 := constant S_ .f32 0x437F0000#32
  let main_v13 : FVec F S2x256x256x256 .f32 := broadcastInDim S2x256x256x256 ![] bcast_S_S2x256x256x256 main_cst_4
  let main_v14 : IVec S2x256x256x256 1 := cmpf .ole main_arg0 main_v13
  let main_c_5 : IVec S_ 1 := constantI S_ 1 1#1
  let main_v15 : IVec S_ 1 := (fun x v => Host.reduce IntOp.andi x v reducesTo_S2x256x256x256_S_d0_1_2_3 h_S_) main_v14 main_c_5
  fn_part1 (F := F) main_arg1 main_v12 main_v15
-- ==== Kernel.lean ====
abbrev S2x256x256x256 : Shape := ⟨4, ![2, 256, 256, 256]⟩
abbrev S4096x8192 : Shape := ⟨2, ![4096, 8192]⟩
abbrev S2x32x32 : Shape := ⟨3, ![2, 32, 32]⟩
abbrev S8x8192 : Shape := ⟨2, ![8, 8192]⟩
abbrev S1x32x32 : Shape := ⟨3, ![1, 32, 32]⟩
abbrev S32x32 : Shape := ⟨2, ![32, 32]⟩
abbrev S1x32 : Shape := ⟨2, ![1, 32]⟩
abbrev S32 : Shape := ⟨1, ![32]⟩
abbrev S8x1x8192 : Shape := ⟨3, ![8, 1, 8192]⟩
abbrev S1x32x1 : Shape := ⟨3, ![1, 32, 1]⟩
abbrev S8x32x8192 : Shape := ⟨3, ![8, 32, 8192]⟩
abbrev S8x32x32 : Shape := ⟨3, ![8, 32, 32]⟩
abbrev S_ : Shape := ⟨0, ![]⟩
abbrev S32x1 : Shape := ⟨2, ![32, 1]⟩

abbrev nBuf : Space → Nat
  | .hbm => 43
  | .vmem => 7
  | .smem => 0
  | _ => 0

abbrev bufTy : (tb : Table) → Fin (tcTables nBuf tb) → BufTy
  | .hbm, ⟨0, _⟩ => ⟨S2x256x256x256, .f32⟩
  | .hbm, ⟨1, _⟩ => ⟨S2x256x256x256, .f32⟩
  | .hbm, ⟨2, _⟩ => ⟨S4096x8192, .f32⟩
  | .hbm, ⟨3, _⟩ => ⟨S4096x8192, .f32⟩
  | .hbm, ⟨4, _⟩ => ⟨S2x32x32, .f32⟩
  | .hbm, ⟨5, _⟩ => ⟨S_, .f32⟩
  | .hbm, ⟨6, _⟩ => ⟨S32x32, .f32⟩
  | .hbm, ⟨7, _⟩ => ⟨S_, .f32⟩
  | .hbm, ⟨8, _⟩ => ⟨S_, .f32⟩
  | .hbm, ⟨9, _⟩ => ⟨S32x32, .f32⟩
  | .hbm, ⟨10, _⟩ => ⟨S32x32, .f32⟩
  | .hbm, ⟨11, _⟩ => ⟨S_, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S_, .f32⟩
  | .hbm, ⟨16, _⟩ => ⟨S32x32, .f32⟩
  | .hbm, ⟨17, _⟩ => ⟨S32x32, .f32⟩
  | .hbm, ⟨18, _⟩ => ⟨S32x32, .f32⟩
  | .hbm, ⟨19, _⟩ => ⟨S32x1, .f32⟩
  | .hbm, ⟨20, _⟩ => ⟨S_, .f32⟩
  | .hbm, ⟨21, _⟩ => ⟨S32x1, .f32⟩
  | .hbm, ⟨22, _⟩ => ⟨S32x1, .f32⟩
  | .hbm, ⟨23, _⟩ => ⟨S32x1, .f32⟩
  | .hbm, ⟨24, _⟩ => ⟨S32x32, .f32⟩
  | .hbm, ⟨25, _⟩ => ⟨S32x32, .f32⟩
  | .hbm, ⟨26, _⟩ => ⟨S1x32, .f32⟩
  | .hbm, ⟨27, _⟩ => ⟨S_, .f32⟩
  | .hbm, ⟨28, _⟩ => ⟨S1x32, .f32⟩
  | .hbm, ⟨29, _⟩ => ⟨S1x32, .f32⟩
  | .hbm, ⟨30, _⟩ => ⟨S1x32, .f32⟩
  | .hbm, ⟨31, _⟩ => ⟨S32x32, .f32⟩
  | .hbm, ⟨32, _⟩ => ⟨S32x32, .f32⟩
  | .hbm, ⟨33, _⟩ => ⟨S32x32, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S8x8192, .f32⟩
  | .local _ .vmem, ⟨1, _⟩ => ⟨S8x8192, .f32⟩
  | .local _ .vmem, ⟨2, _⟩ => ⟨S8x8192, .f32⟩
  | .local _ .vmem, ⟨3, _⟩ => ⟨S8x8192, .f32⟩
  | .local _ .vmem, ⟨4, _⟩ => ⟨S1x32x32, .f32⟩
  | .local _ .vmem, ⟨5, _⟩ => ⟨S1x32x32, .f32⟩
  | .local _ .vmem, ⟨6, _⟩ => ⟨S32x32, .f32⟩
  | _, _ => ⟨S2x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 256], ![false, false]⟩

def k0_cond2 (i : grid0.Coords) : BitVec 1 :=
  let arg1 : BitVec 32 := BitVec.ofNat 32 (i 1).val
  let c255_i32 : BitVec 32 := 255#32
  let v44 : BitVec 1 := Scalar.cmpi .eq arg1 c255_i32
  let v45 : BitVec 32 := Scalar.extui v44
  let c0_i32_13 : BitVec 32 := 0#32
  let v46 : BitVec 1 := Scalar.cmpi .ne v45 c0_i32_13
  v46

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S2x256x256x256_S4096x8192 : S2x256x256x256.ShapeCasts S4096x8192
  inb_S8x8192_S8x8192_0_0 : ∀ a, (![0, 0] : Fin 2 → Nat) a + S8x8192.size a ≤ S8x8192.size a
  h_S8x8192 : 0 < S8x8192.numel
  shapeCasts_S8x8192_S8x8192 : S8x8192.ShapeCasts S8x8192
  iota_S1x32_d1_w32 : S1x32.Iotas .tc 32 [1]
  shapeCasts_S1x32_S32 : S1x32.ShapeCasts S32
  shapeCasts_S8x8192_S8x1x8192 : S8x8192.ShapeCasts S8x1x8192
  shapeCasts_S32_S1x32x1 : S32.ShapeCasts S1x32x1
  broadcasts_S8x1x8192_S8x32x8192 : S8x1x8192.Broadcasts S8x32x8192
  broadcasts_S1x32x1_S8x32x8192 : S1x32x1.Broadcasts S8x32x8192
  natLt_1_32 : 1 < 32
  bitsLt_bf16_f32 : FTy.bits .bf16 < FTy.bits .f32
  reduces_S8x32x32_S32x32 : S8x32x32.Reduces [0] S32x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32x32_S1x32x32_0_0_0 : ∀ a, (![0, 0, 0] : Fin 3 → Nat) a + S1x32x32.size a ≤ S1x32x32.size a
  h_S1x32x32 : 0 < S1x32x32.numel
  shapeCasts_S1x32x32_S32x32 : S1x32x32.ShapeCasts S32x32
  shapeCasts_S32x32_S1x32x32 : S32x32.ShapeCasts S1x32x32
  reducesTo_S2x32x32_S32x32_d0 : S2x32x32.ReducesTo [0] S32x32
  h_S_ : 0 < S_.numel
  reducesTo_S32x32_S_d0_1 : S32x32.ReducesTo [0, 1] S_
  bcast_S_S32x32 : S_.BroadcastsInDim S32x32 (![] : Fin 0 → Fin S32x32.rank)
  reducesTo_S32x32_S32_d1 : S32x32.ReducesTo [1] S32
  reducesTo_S32x32_S32_d0 : S32x32.ReducesTo [0] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x32_0_1 : S32x1.BroadcastsInDim S32x32 (![0, 1] : Fin 2 → Fin S32x32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S32x32_0_1 : S1x32.BroadcastsInDim S32x32 (![0, 1] : Fin 2 → Fin S32x32.rank)
  dot_S8x32x8192_S8x32x8192_S8x32x32_2_2_1_1_0_0_wf : DotDims.WF S8x32x8192 S8x32x8192 S8x32x32 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8192.size a ≤ S4096x8192.size a
  hwx0_0 : ∀ i : grid0.Coords, EltTy.bits .f32 = 32 ∨ (Rect.block (s := S4096x8192) S8x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8192.size a ≤ S4096x8192.size a
  hwx0_1 : ∀ i : grid0.Coords, EltTy.bits .f32 = 32 ∨ (Rect.block (s := S4096x8192) S8x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x32.size a ≤ S2x32x32.size a
  hwx0_2 : ∀ i : grid0.Coords, EltTy.bits .f32 = 32 ∨ (Rect.block (s := S2x32x32) S1x32x32.size (cc0_transform_2 i) (hinb0_2 i)).WholeWords (EltTy.packing .f32)

variable [Facts₀]

def dot_S8x32x8192_S8x32x8192_S8x32x32_2_2_1_1_0_0 : DotDims S8x32x8192 S8x32x8192 S8x32x32 where
  lhsContracting := [2]
  rhsContracting := [2]
  lhsNonContracting := [1]
  rhsNonContracting := [1]
  lhsBatch := [0]
  rhsBatch := [0]
  wf := dot_S8x32x8192_S8x32x8192_S8x32x32_2_2_1_1_0_0_wf

abbrev win0_0 : Pipeline.Window sig grid0 :=
  Pipeline.Window.ofSpec (Memref.whole main_v0) S8x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x256x256x256 : Shape := ⟨4, ![2, 256, 256, 256]⟩
abbrev S_ : Shape := ⟨0, ![]⟩
abbrev S33554432 : Shape := ⟨1, ![33554432]⟩
abbrev S1024 : Shape := ⟨1, ![1024]⟩
abbrev S33554432x1 : Shape := ⟨2, ![33554432, 1]⟩
abbrev S32x32 : Shape := ⟨2, ![32, 32]⟩
abbrev S32 : Shape := ⟨1, ![32]⟩
abbrev S32x1 : Shape := ⟨2, ![32, 1]⟩
abbrev S1x32 : Shape := ⟨2, ![1, 32]⟩

abbrev nBuf : Space → Nat
  | .hbm => 72
  | .vmem => 0
  | .smem => 0
  | _ => 0

abbrev bufTy : (tb : Table) → Fin (tcTables nBuf tb) → BufTy
  | .hbm, ⟨0, _⟩ => ⟨S2x256x256x256, .f32⟩
  | .hbm, ⟨1, _⟩ => ⟨S2x256x256x256, .f32⟩
  | .hbm, ⟨2, _⟩ => ⟨S_, .f32⟩
  | .hbm, ⟨3, _⟩ => ⟨S2x256x256x256, .f32⟩
  | .hbm, ⟨4, _⟩ => ⟨S2x256x256x256, .f32⟩
  | .hbm, ⟨5, _⟩ => ⟨S_, .f32⟩
  | .hbm, ⟨6, _⟩ => ⟨S2x256x256x256, .f32⟩
  | .hbm, ⟨7, _⟩ => ⟨S2x256x256x256, .f32⟩
  | .hbm, ⟨8, _⟩ => ⟨S2x256x256x256, .f32⟩
  | .hbm, ⟨9, _⟩ => ⟨S_, .f32⟩
  | .hbm, ⟨10, _⟩ => ⟨S2x256x256x256, .f32⟩
  | .hbm, ⟨11, _⟩ => ⟨S2x256x256x256, .f32⟩
  | .hbm, ⟨12, _⟩ => ⟨S_, .f32⟩
  | .hbm, ⟨13, _⟩ => ⟨S2x256x256x256, .f32⟩
  | .hbm, ⟨14, _⟩ => ⟨S2x256x256x256, .f32⟩
  | .hbm, ⟨15, _⟩ => ⟨S2x256x256x256, .f32⟩
  | .hbm, ⟨16, _⟩ => ⟨S_, .f32⟩
  | .hbm, ⟨17, _⟩ => ⟨S2x256x256x256, .f32⟩
  | .hbm, ⟨18, _⟩ => ⟨S2x256x256x256, .f32⟩
  | .hbm, ⟨19, _⟩ => ⟨S2x256x256x256, .f32⟩
  | .hbm, ⟨20, _⟩ => ⟨S2x256x256x256, .i32⟩
  | .hbm, ⟨21, _⟩ => ⟨S33554432, .i32⟩
  | .hbm, ⟨22, _⟩ => ⟨S_, .f32⟩
  | .hbm, ⟨23, _⟩ => ⟨S1024, .f32⟩
  | .hbm, ⟨24, _⟩ => ⟨S_, .i32⟩
  | .hbm, ⟨25, _⟩ => ⟨S33554432, .i32⟩
  | .hbm, ⟨26, _⟩ => ⟨S33554432, .i1⟩
  | .hbm, ⟨27, _⟩ => ⟨S_, .i32⟩
  | .hbm, ⟨28, _⟩ => ⟨S33554432, .i32⟩
  | .hbm, ⟨29, _⟩ => ⟨S33554432, .i32⟩
  | .hbm, ⟨30, _⟩ => ⟨S33554432, .i32⟩
  | .hbm, ⟨31, _⟩ => ⟨S33554432x1, .i32⟩
  | .hbm, ⟨32, _⟩ => ⟨S_, .f32⟩
  | .hbm, ⟨33, _⟩ => ⟨S33554432, .f32⟩
  | .hbm, ⟨34, _⟩ => ⟨S1024, .f32⟩
  | .hbm, ⟨35, _⟩ => ⟨S32x32, .f32⟩
  | .hbm, ⟨36, _⟩ => ⟨S_, .f32⟩
  | .hbm, ⟨37, _⟩ => ⟨S_, .f32⟩
  | .hbm, ⟨38, _⟩ => ⟨S32x32, .f32⟩
  | .hbm, ⟨39, _⟩ => ⟨S32x32, .f32⟩
  | .hbm, ⟨40, _⟩ => ⟨S_, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S_, .f32⟩
  | .hbm, ⟨45, _⟩ => ⟨S32x32, .f32⟩
  | .hbm, ⟨46, _⟩ => ⟨S32x32, .f32⟩
  | .hbm, ⟨47, _⟩ => ⟨S32x32, .f32⟩
  | .hbm, ⟨48, _⟩ => ⟨S32x1, .f32⟩
  | .hbm, ⟨49, _⟩ => ⟨S_, .f32⟩
  | .hbm, ⟨50, _⟩ => ⟨S32x1, .f32⟩
  | .hbm, ⟨51, _⟩ => ⟨S32x1, .f32⟩
  | .hbm, ⟨52, _⟩ => ⟨S32x1, .f32⟩
  | .hbm, ⟨53, _⟩ => ⟨S32x32, .f32⟩
  | .hbm, ⟨54, _⟩ => ⟨S32x32, .f32⟩
  | .hbm, ⟨55, _⟩ => ⟨S1x32, .f32⟩
  | .hbm, ⟨56, _⟩ => ⟨S_, .f32⟩
  | .hbm, ⟨57, _⟩ => ⟨S1x32, .f32⟩
  | .hbm, ⟨58, _⟩ => ⟨S1x32, .f32⟩
  | .hbm, ⟨59, _⟩ => ⟨S1x32, .f32⟩
  | .hbm, ⟨60, _⟩ => ⟨S32x32, .f32⟩
  | .hbm, ⟨61, _⟩ => ⟨S32x32, .f32⟩
  | .hbm, ⟨62, _⟩ => ⟨S32x32, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S2x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_cst_9 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_12 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_13 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_14 : Ref sig .tc := ⟨.hbm, 68, rfl⟩
abbrev main_v50 : Ref sig .tc := ⟨.hbm, 69, rfl⟩
abbrev main_cst_15 : Ref sig .tc := ⟨.hbm, 70, rfl⟩
abbrev main_v51 : Ref sig .tc := ⟨.hbm, 71, rfl⟩

abbrev nD : Nat := 1
abbrev τ : Topo := Topo.v7x

variable {F : FTy → Type} [FloatOps F]

class Facts₀ : Prop where
  bcast_S_S2x256x256x256 : S_.BroadcastsInDim S2x256x256x256 (![] : Fin 0 → Fin S2x256x256x256.rank)
  shapeCasts_S2x256x256x256_S33554432 : S2x256x256x256.ShapeCasts S33554432
  bcast_S_S1024 : S_.BroadcastsInDim S1024 (![] : Fin 0 → Fin S1024.rank)
  bcast_S_S33554432 : S_.BroadcastsInDim S33554432 (![] : Fin 0 → Fin S33554432.rank)
  bcast_S33554432_S33554432x1_0 : S33554432.BroadcastsInDim S33554432x1 (![0] : Fin 1 → Fin S33554432x1.rank)
  shapeCasts_S1024_S32x32 : S1024.ShapeCasts S32x32
  reducesTo_S32x32_S_d0_1 : S32x32.ReducesTo [0, 1] S_
  h_S_ : 0 < S_.numel
  bcast_S_S32x32 : S_.BroadcastsInDim S32x32 (![] : Fin 0 → Fin S32x32.rank)
  reducesTo_S32x32_S32_d1 : S32x32.ReducesTo [1] S32
  reducesTo_S32x32_S32_d0 : S32x32.ReducesTo [0] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x32_0_1 : S32x1.BroadcastsInDim S32x32 (![0, 1] : Fin 2 → Fin S32x32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S32x32_0_1 : S1x32.BroadcastsInDim S32x32 (![0, 1] : Fin 2 → Fin S32x32.rank)
  scatter_S1024_S33554432x1_S33554432_n_0_0_1_wf : ScatterDims.WF S1024 S33554432x1 S33554432 [] [0] [0] 1

variable [Facts₀]

def scatter_S1024_S33554432x1_S33554432_n_0_0_1 : ScatterDims S1024 S33554432x1 S33554432 where
  updateWindowDims := []
  insertedWindowDims := [0]
  scatterDimsToOperandDims := [0]
  indexVectorDim := 1
  wf := scatter_S1024_S33554432x1_S33554432_n_0_0_1_wf

class Facts : Prop extends Facts₀ where

variable [Facts]
-- ==== Proof.KPieces.lean ====
/-
  What one grid point leaves behind, case by case.

  The body keeps a 32×32 accumulator in scratch.  At the first point of a core (case A) it stores the zero
  block and then adds the point's tile histogram; at a middle point (case B) it adds the tile histogram to
  what the point before left; at the last point (case C) it does the same and then copies the accumulator
  into the output block.  Each lemma reads the pieces the run found back as the body's arithmetic
  (the payloads) of the point's two input blocks and of the accumulator the point started with.
-/
import proofs.«102625_j87789131530707_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after a point that found it at `acc`: `acc` plus the tile histogram of the two blocks. -/
abbrev step (x0 x1 : Vec F S8x8192 .f32) (acc : Vec F S32x32 .f32) : Vec F S32x32 .f32 :=
  k0_pay1 (k0_pay4 x0 x1 acc)

/-- Case B (a middle point): the scratch ends at one step from what it held. -/
theorem sout_B (c : Dev nD) (i : grid0.Coords) (arg2 : Memref sig .tc .vmem S8x8192 .f32) (harg2 : arg2.IsWhole) (arg3 : Memref sig .tc .vmem S8x8192 .f32) (harg3 : arg3.IsWhole) (arg4 : Memref sig .tc .vmem S1x32x32 .f32) (harg4 : arg4.IsWhole) (arg5 : Memref sig .tc .vmem S32x32 .f32) (harg5 : arg5.IsWhole) (hc0 : ¬cond0_0 i) (hc1 : ¬cond0_1 i) (x0 x1 : Vec F S8x8192 .f32) (xs0 : Vec F S32x32 .f32) :
    sout0_B_0 c i arg2 harg2 arg3 harg3 arg4 harg4 arg5 harg5 hc0 hc1 x0 x1 xs0 = step x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread,
    View.ld_unit_zero (S := S8x8192) hz2, View.ld_unit_zero (S := S32x32) hz2]

/-- Case C (the last point of a core): the scratch ends at one step from what it held. -/
theorem sout_C (c : Dev nD) (i : grid0.Coords) (arg2 : Memref sig .tc .vmem S8x8192 .f32) (harg2 : arg2.IsWhole) (arg3 : Memref sig .tc .vmem S8x8192 .f32) (harg3 : arg3.IsWhole) (arg4 : Memref sig .tc .vmem S1x32x32 .f32) (harg4 : arg4.IsWhole) (arg5 : Memref sig .tc .vmem S32x32 .f32) (harg5 : arg5.IsWhole) (hc0 : ¬cond0_0 i) (hc1 : cond0_1 i) (x0 x1 : Vec F S8x8192 .f32) (xs0 : Vec F S32x32 .f32) :
    sout0_C_0 c i arg2 harg2 arg3 harg3 arg4 harg4 arg5 harg5 hc0 hc1 x0 x1 xs0 = step x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S8x8192) hz2, View.ld_unit_zero (S := S32x32) hz2]

/-- Case C: the output block ends at that accumulator, recast to [1, 32, 32]. -/
theorem out_C (c : Dev nD) (i : grid0.Coords) (arg2 : Memref sig .tc .vmem S8x8192 .f32) (harg2 : arg2.IsWhole) (arg3 : Memref sig .tc .vmem S8x8192 .f32) (harg3 : arg3.IsWhole) (arg4 : Memref sig .tc .vmem S1x32x32 .f32) (harg4 : arg4.IsWhole) (arg5 : Memref sig .tc .vmem S32x32 .f32) (harg5 : arg5.IsWhole) (hc0 : ¬cond0_0 i) (hc1 : cond0_1 i) (x0 x1 : Vec F S8x8192 .f32) (xs0 : Vec F S32x32 .f32) :
    out0_C_2 c i arg2 harg2 arg3 harg3 arg4 harg4 arg5 harg5 hc0 hc1 x0 x1 xs0 = k0_pay2 (step x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S32x32) _ hz2]
  simp only [View.readAt_eq_ld, harg2.read_unread, harg3.read_unread, harg5.read_unread,
    View.ld_unit_zero (S := S8x8192) hz2, View.ld_unit_zero (S := S32x32) hz2]

/-- Case A (the first point of a core): the scratch ends at one step from the zero block. -/
theorem sout_A (c : Dev nD) (i : grid0.Coords) (arg2 : Memref sig .tc .vmem S8x8192 .f32) (harg2 : arg2.IsWhole) (arg3 : Memref sig .tc .vmem S8x8192 .f32) (harg3 : arg3.IsWhole) (arg4 : Memref sig .tc .vmem S1x32x32 .f32) (harg4 : arg4.IsWhole) (arg5 : Memref sig .tc .vmem S32x32 .f32) (harg5 : arg5.IsWhole) (hc0 : cond0_0 i) (hc1 : ¬cond0_1 i) (x0 x1 : Vec F S8x8192 .f32) :
    sout0_A_0 c i arg2 harg2 arg3 harg3 arg4 harg4 arg5 harg5 hc0 hc1 x0 x1 = step x0 x1 k0_pay3 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S32x32) hz2, View.readCov_unit_zero (S := S32x32) _ hz2]
  simp only [View.readAt_eq_ld, harg2.read_unread, harg3.read_unread,
    View.ld_unit_zero (S := S8x8192) hz2]

end Cert.KernelIdeal.KValue

end
-- ==== Proof.HistSpec.lean ====
/-
  The joint histogram of two quantised volumes, and the read-out both programs end with.

  A voxel intensity x is quantised to round-half-even (x / 255 · 31); its bin is that value converted to a
  32-bit integer.  Entry (a, b) of the joint histogram counts the voxels whose two bins are a and b.  The
  read-out normalises the histogram to a joint probability p, takes its two marginals, forms
  MI = Σ p · (log (p + ε) − log (p_row + ε) − log (p_col + ε)) and returns 1 / (1 + exp MI).
  Everything is read on the extended reals.
-/
import Idealize.ShloMosaic.PureOps
import Idealize.ShloMosaic.PureOps.Ideal

noncomputable section

namespace Cert.Hist

open Idealize.ShloMosaic

abbrev S4 : Shape := ⟨4, ![2, 256, 256, 256]⟩
abbrev S32x32 : Shape := ⟨2, ![32, 32]⟩
abbrev S32 : Shape := ⟨1, ![32]⟩
abbrev S32x1 : Shape := ⟨2, ![32, 1]⟩
abbrev S1x32 : Shape := ⟨2, ![1, 32]⟩
abbrev S_ : Shape := ⟨0, ![]⟩

/-- The quantised intensity, still a float: x / 255 · 31 rounded to nearest, ties to even. -/
def quant (x : EReal) : EReal :=
  FloatOps.roundeven (F := Ideal) (φ := .f32)
    (FloatOps.mulf (F := Ideal) (φ := .f32)
      (FloatOps.divf (F := Ideal) (φ := .f32) x (Ideal.ofBits .f32 0x437F0000#32))
      (Ideal.ofBits .f32 0x41F80000#32))

/-- Its bin: the quantised intensity as a 32-bit integer. -/
def bin (x : EReal) : BitVec 32 := FloatOps.fptosi (F := Ideal) (φ := .f32) 32 (quant x)

/-- The joint histogram: entry (a, b) counts the voxels whose bins are a and b. -/
def hist (I J : S4.Idx → EReal) (ab : S32x32.Idx) : EReal :=
  ∑ e : S4.Idx, if bin (I e) = BitVec.ofNat 32 (ab 0).val ∧ bin (J e) = BitVec.ofNat 32 (ab 1).val then 1 else 0

/-- A volume is BINNED when every quantised intensity is one of the integers 0 … 31. -/
def Binned (I : S4.Idx → EReal) : Prop := ∀ e, ∃ n : ℕ, n ≤ 31 ∧ quant (I e) = ((n : ℝ) : EReal)

theorem hS_ : 0 < S_.numel := by decide
theorem r_all : S32x32.ReducesTo [0, 1] S_ := by decide
theorem r_rows : S32x32.ReducesTo [1] S32 := by decide
theorem r_cols : S32x32.ReducesTo [0] S32 := by decide
theorem b_all : S_.BroadcastsInDim S32x32 (![] : Fin 0 → Fin S32x32.rank) := by decide
theorem b_col : S32.BroadcastsInDim S32x1 (![0] : Fin 1 → Fin S32x1.rank) := by decide
theorem b_col0 : S_.BroadcastsInDim S32x1 (![] : Fin 0 → Fin S32x1.rank) := by decide
theorem b_colM : S32x1.BroadcastsInDim S32x32 (![0, 1] : Fin 2 → Fin S32x32.rank) := by decide
theorem b_row : S32.BroadcastsInDim S1x32 (![1] : Fin 1 → Fin S1x32.rank) := by decide
theorem b_row0 : S_.BroadcastsInDim S1x32 (![] : Fin 0 → Fin S1x32.rank) := by decide
theorem b_rowM : S1x32.BroadcastsInDim S32x32 (![0, 1] : Fin 2 → Fin S32x32.rank) := by decide

/-- The read-out of a joint histogram h: with p = h / Σ h, the marginals r = Σ_b p and c = Σ_a p,
    MI = Σ p · (log (p + ε) − log (r + ε) − log (c + ε)), the result 1 / (1 + exp (−(−MI))). -/
def tail (h : FVec Ideal S32x32 .f32) : FVec Ideal S_ .f32 :=
  let total : FVec Ideal S_ .f32 := Host.reduceAdd h (constant (F := Ideal) S_ .f32 0x00000000#32) r_all hS_
  let p : FVec Ideal S32x32 .f32 := Host.divf h (broadcastInDim S32x32 ![] b_all total)
  let rows : FVec Ideal S32 .f32 := Host.reduceAdd p (constant (F := Ideal) S_ .f32 0x00000000#32) r_rows hS_
  let cols : FVec Ideal S32 .f32 := Host.reduceAdd p (constant (F := Ideal) S_ .f32 0x00000000#32) r_cols hS_
  let lp : FVec Ideal S32x32 .f32 :=
    Host.log (addf p (broadcastInDim S32x32 ![] b_all (constant (F := Ideal) S_ .f32 0x3727C5AC#32)))
  let lr : FVec Ideal S32x1 .f32 :=
    Host.log (addf (broadcastInDim S32x1 ![0] b_col rows)
      (broadcastInDim S32x1 ![] b_col0 (constant (F := Ideal) S_ .f32 0x3727C5AC#32)))
  let d1 : FVec Ideal S32x32 .f32 := subf lp (broadcastInDim S32x32 ![0, 1] b_colM lr)
  let lc : FVec Ideal S1x32 .f32 :=
    Host.log (addf (broadcastInDim S1x32 ![1] b_row cols)
      (broadcastInDim S1x32 ![] b_row0 (constant (F := Ideal) S_ .f32 0x3727C5AC#32)))
  let d2 : FVec Ideal S32x32 .f32 := subf d1 (broadcastInDim S32x32 ![0, 1] b_rowM lc)
  let mi : FVec Ideal S_ .f32 := Host.reduceAdd (mulf p d2) (constant (F := Ideal) S_ .f32 0x00000000#32) r_all hS_
  let e : FVec Ideal S_ .f32 := Host.exp (Host.negf (Host.negf mi))
  Host.divf (constant (F := Ideal) S_ .f32 0x3F800000#32) (addf (constant (F := Ideal) S_ .f32 0x3F800000#32) e)

end Cert.Hist

end
-- ==== Proof.KTile.lean ====
/-
  One grid point's contribution: the tile histogram.

  A point loads an 8 × 8192 block of each volume.  The body quantises every entry to its bin, compares the
  bins against 0 … 31 to get two stacks of one-hot rows (8 × 32 × 8192 each, entries 0 or 1), multiplies the
  stacks row by row — a batched product contracting the 8192 entries — and sums the 8 resulting 32 × 32
  matrices.  Entry (a, b) of the result is therefore the number of entries (r, k) of the block whose two
  bins are a and b, and the point adds it to the accumulator it found.
-/
import proofs.«102625_j87789131530707_2_alg».proof.Proof.KPieces
import proofs.«102625_j87789131530707_2_alg».proof.Proof.HistSpec
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

local notation "dotR" => dot_S8x32x8192_S8x32x8192_S8x32x32_2_2_1_1_0_0

theorem contr_rank : (dotR).contr.rank = 1 := rfl
theorem contr_size : (dotR).contr.size ⟨0, by rw [contr_rank]; omega⟩ = 8192 := rfl

/-- The left operand of the batched product at output entry (r, a, b) and contraction position k is read
    at (r, a, k): batch row r, bin a, entry k. -/
theorem lhs_idx (r : Fin 8) (a b : Fin 32) (k : Fin 8192) :
    (dotR).lhsIdx (ix3 r a b) ((contrEquiv1 (dotR) 8192 contr_rank contr_size).symm k) = ix3 r a k := by
  funext d
  apply Fin.ext
  match d with
  | ⟨0, _⟩ => rfl
  | ⟨1, _⟩ => rfl
  | ⟨2, _⟩ =>
    exact ((dotR).lhsIdx_val_of_single (cl := (2 : Fin 3)) rfl (ix3 r a b) _).trans
      (contrEquiv1_symm_val (dotR) 8192 contr_rank contr_size k)

/-- The right operand is read at (r, b, k). -/
theorem rhs_idx (r : Fin 8) (a b : Fin 32) (k : Fin 8192) :
    (dotR).rhsIdx (ix3 r a b) ((contrEquiv1 (dotR) 8192 contr_rank contr_size).symm k) = ix3 r b k := by
  funext d
  apply Fin.ext
  match d with
  | ⟨0, _⟩ => rfl
  | ⟨1, _⟩ => rfl
  | ⟨2, _⟩ =>
    exact ((dotR).rhsIdx_val_of_single (cr := (2 : Fin 3)) rfl (ix3 r a b) _).trans
      (contrEquiv1_symm_val (dotR) 8192 contr_rank contr_size k)

/-- The bins of a block's entries. -/
def bins (x : Vec Ideal S8x8192 .f32) : IVec S8x8192 32 := fun i => Cert.Hist.bin (x i)

/-- The stack of one-hot rows of a block of bins: entry (r, a, k) is 1 when bin (r, k) is a, else 0. -/
def onehot (q : IVec S8x8192 32) : FVec Ideal S8x32x8192 .bf16 :=
  truncf .bf16 (sitofp .f32 (extui 32 (cmpi .eq
    (broadcastTo S8x32x8192 (shapeCast S8x1x8192 q shapeCasts_S8x8192_S8x1x8192) broadcasts_S8x1x8192_S8x32x8192)
    (broadcastTo S8x32x8192 (shapeCast S1x32x1 (shapeCast S32 (iota .tc S1x32 32 [1] iota_S1x32_d1_w32)
      shapeCasts_S1x32_S32) shapeCasts_S32_S1x32x1) broadcasts_S1x32x1_S8x32x8192)) natLt_1_32)) bitsLt_bf16_f32

theorem bcast_bins_apply (q : IVec S8x8192 32) (r : Fin 8) (a : Fin 32) (k : Fin 8192) :
    broadcastTo S8x32x8192 (shapeCast S8x1x8192 q shapeCasts_S8x8192_S8x1x8192) broadcasts_S8x1x8192_S8x32x8192
      (ix3 r a k) = q (ix2 r k) := by
  rw [broadcastTo_apply _ _ _ (ix3 r (0 : Fin 1) k) (fun d => by match d with | ⟨0, _⟩ => rfl | ⟨1, _⟩ => rfl | ⟨2, _⟩ => rfl)]
  refine shapeCast_apply _ _ _ (ix2 r k) ?_
  rw [Shape.rowMajor_val_two, Shape.rowMajor_val_three]
  show r.val * 8192 + k.val = (r.val * 1 + 0) * 8192 + k.val
  omega

theorem bcast_iota_apply (r : Fin 8) (a : Fin 32) (k : Fin 8192) :
    broadcastTo S8x32x8192 (shapeCast S1x32x1 (shapeCast S32 (iota .tc S1x32 32 [1] iota_S1x32_d1_w32)
      shapeCasts_S1x32_S32) shapeCasts_S32_S1x32x1) broadcasts_S1x32x1_S8x32x8192 (ix3 r a k)
      = BitVec.ofNat 32 a.val := by
  rw [broadcastTo_apply _ _ _ (ix3 (0 : Fin 1) a (0 : Fin 1)) (fun d => by match d with | ⟨0, _⟩ => rfl | ⟨1, _⟩ => rfl | ⟨2, _⟩ => rfl)]
  rw [shapeCast_apply _ _ _ (ix1 a) (by rw [Shape.rowMajor_val_one, Shape.rowMajor_val_three]; simp [ix1, ix3])]
  rw [shapeCast_apply _ _ _ (ix2 (0 : Fin 1) a) (by rw [Shape.rowMajor_val_one, Shape.rowMajor_val_two]; simp [ix1, ix2])]
  rw [iota_single_apply]

theorem onehot_apply (q : IVec S8x8192 32) (r : Fin 8) (a : Fin 32) (k : Fin 8192) :
    onehot q (ix3 r a k) = if q (ix2 r k) = BitVec.ofNat 32 a.val then 1 else 0 := by
  show ((((IntOp.cmpi .eq (broadcastTo S8x32x8192 (shapeCast S8x1x8192 q shapeCasts_S8x8192_S8x1x8192) broadcasts_S8x1x8192_S8x32x8192 (ix3 r a k))
      (broadcastTo S8x32x8192 (shapeCast S1x32x1 (shapeCast S32 (iota .tc S1x32 32 [1] iota_S1x32_d1_w32)
      shapeCasts_S1x32_S32) shapeCasts_S32_S1x32x1) broadcasts_S1x32x1_S8x32x8192 (ix3 r a k))).setWidth 32).toInt : ℝ) : EReal) = _
  rw [bcast_bins_apply, bcast_iota_apply]
  by_cases h : q (ix2 r k) = BitVec.ofNat 32 a.val
  · rw [if_pos h, h]
    simp [IntOp.cmpi]
  · rw [if_neg h]
    have hb : (q (ix2 r k) == BitVec.ofNat 32 a.val) = false := beq_false_of_ne h
    simp [IntOp.cmpi, hb]

/-- The tile histogram of two blocks: entry (a, b) counts the entries (r, k) whose bins are a and b. -/
def tile (x0 x1 : Vec Ideal S8x8192 .f32) (ab : S32x32.Idx) : EReal :=
  ∑ r : Fin 8, ∑ k : Fin 8192,
    if Cert.Hist.bin (x0 (ix2 r k)) = BitVec.ofNat 32 (ab 0).val ∧ Cert.Hist.bin (x1 (ix2 r k)) = BitVec.ofNat 32 (ab 1).val
    then 1 else 0

/-- The body's arithmetic, with the two one-hot stacks named. -/
theorem pay4_eq (x0 x1 : Vec Ideal S8x8192 .f32) (acc : Vec Ideal S32x32 .f32) :
    k0_pay4 (F := Ideal) x0 x1 acc = addf acc (multiReduction .add [0] S32x32
      (matmul dotR none (onehot (bins x0)) (onehot (bins x1)) (constant S8x32x32 .f32 0x00000000#32))
      0x00000000#32 reduces_S8x32x32_S32x32 (.inl rfl) rfl) := by
  unfold k0_pay4
  simp only [shapeCast_self]
  rfl

/-- The product of two one-hot entries is the indicator of both bins matching. -/
theorem onehot_mul (q0 q1 : IVec S8x8192 32) (r : Fin 8) (a b : Fin 32) (k : Fin 8192) :
    onehot q0 (ix3 r a k) * onehot q1 (ix3 r b k)
      = if q0 (ix2 r k) = BitVec.ofNat 32 a.val ∧ q1 (ix2 r k) = BitVec.ofNat 32 b.val then (1 : EReal) else 0 := by
  rw [onehot_apply, onehot_apply]
  by_cases h0 : q0 (ix2 r k) = BitVec.ofNat 32 a.val <;> by_cases h1 : q1 (ix2 r k) = BitVec.ofNat 32 b.val <;> simp [h0, h1]

/-- The batched product of two one-hot stacks at (r, a, b): the number of entries k of row r whose bins are a and b. -/
theorem matmul_at (q0 q1 : IVec S8x8192 32) (r : Fin 8) (a b : Fin 32) :
    matmul (F := Ideal) dotR none (onehot q0) (onehot q1) (constant S8x32x32 .f32 0x00000000#32) (ix3 r a b)
      = ∑ k : Fin 8192, if q0 (ix2 r k) = BitVec.ofNat 32 a.val ∧ q1 (ix2 r k) = BitVec.ofNat 32 b.val then (1 : EReal) else 0 := by
  simp only [matmul]
  rw [Ideal.matmul_constant_zero_apply, ← Equiv.sum_comp (contrEquiv1 (dotR) 8192 contr_rank contr_size).symm]
  refine Finset.sum_congr rfl fun k _ => ?_
  rw [lhs_idx, rhs_idx, onehot_mul]

/-- Summing the stack over its 8 rows: row r of entry (a, b) sits at (r, a, b). -/
theorem lift_eq (r : Fin 8) (a b : Fin 32) : reduces_S8x32x32_S32x32.lift (ix2 a b) r = ix3 r a b := by
  funext d
  apply Fin.ext
  match d with
  | ⟨0, _⟩ => rfl
  | ⟨1, _⟩ => rfl
  | ⟨2, _⟩ => rfl

/-- One step of the accumulator, entry by entry: what it held plus the tile histogram. -/
theorem step_apply (x0 x1 : Vec Ideal S8x8192 .f32) (acc : Vec Ideal S32x32 .f32) (ab : S32x32.Idx) :
    step (F := Ideal) x0 x1 acc ab = acc ab + tile x0 x1 ab := by
  obtain ⟨a, b, rfl⟩ : ∃ (a b : Fin 32), ab = ix2 a b := ⟨ab 0, ab 1, eq_ix2 ab⟩
  unfold step k0_pay1
  rw [shapeCast_self, pay4_eq]
  show (acc (ix2 a b) : EReal) + (multiReduction (F := Ideal) .add [0] S32x32 _ 0x00000000#32 reduces_S8x32x32_S32x32 (.inl rfl) rfl (ix2 a b) : EReal) = _
  refine congrArg (acc (ix2 a b) + ·) ((Ideal.multiReduction_add_single
    (matmul (F := Ideal) dotR none (onehot (bins x0)) (onehot (bins x1)) (constant S8x32x32 .f32 0x00000000#32))
    0x00000000#32 reduces_S8x32x32_S32x32 (.inl rfl) rfl (ix2 a b)).trans ?_)
  unfold tile
  refine Finset.sum_congr rfl fun r _ => ?_
  rw [lift_eq r a b]
  exact matmul_at (bins x0) (bins x1) r a b

end Cert.KernelIdeal.KValue

end
-- ==== Proof.KAccum.lean ====
/-
  The accumulator point by point, and the array the region leaves.

  The 512 grid points run core by core: point n belongs to core n / 256 and is its step n % 256.  After point
  n the scratch accumulator holds the sum of the tile histograms of the core's points up to n (it is reset at
  the core's first point).  At a core's last point the accumulator is copied to the core's block of the
  [2, 32, 32] output array, so that array ends holding, per core, the sum of the core's 256 tile histograms.
-/
import proofs.«102625_j87789131530707_2_alg».proof.Proof.KTile

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (m : (ℓ : Loc nD τ sig) → Buf (Elt Ideal) ℓ)

/-- The block the reset stores is zero everywhere. -/
theorem pay3_apply (ab : S32x32.Idx) : k0_pay3 (F := Ideal) ab = 0 := by
  unfold k0_pay3
  rw [shapeCast_self]
  exact Ideal.ofBits_zero_f32

/-- At a core's first point the scratch ends at that point's tile histogram. -/
theorem scratch_first (c : Dev nD) (t : Fin cfg0.N) (h0 : t.val % 256 = 0) (h1 : ¬t.val % 256 = 255) (ab : S32x32.Idx) :
    (outsAt0 m c t.val t.isLt).2 ab = 0 + tile (iblk m c 0 t) (iblk m c 1 t) ab := by
  rw [outsAt0_A m c t h0 h1]
  dsimp only
  refine (congrFun (sout_A (F := Ideal) c (grid0.coords t) (ms0_0 t) (hs0_0 t) (ms0_1 t) (hs0_1 t) (ms0_2 t) (hs0_2 t) scM0_0 (Memref.isWhole_whole _) _ _ (iblk m c 0 t) (iblk m c 1 t)) ab).trans ?_
  rw [step_apply (iblk m c 0 t) (iblk m c 1 t) (k0_pay3 (F := Ideal)) ab, pay3_apply]

/-- At every other point it ends at what the point before left plus the point's tile histogram. -/
theorem scratch_next (c : Dev nD) (t : Fin cfg0.N) (h0 : ¬t.val % 256 = 0) (ab : S32x32.Idx) :
    (outsAt0 m c t.val t.isLt).2 ab
      = (outsAt0 m c (t.val - 1) (Nat.lt_of_le_of_lt (Nat.sub_le _ _) t.isLt)).2 ab + tile (iblk m c 0 t) (iblk m c 1 t) ab := by
  by_cases h1 : t.val % 256 = 255
  · rw [outsAt0_C m c t h0 h1]
    dsimp only
    refine (congrFun (sout_C (F := Ideal) c (grid0.coords t) (ms0_0 t) (hs0_0 t) (ms0_1 t) (hs0_1 t) (ms0_2 t) (hs0_2 t) scM0_0 (Memref.isWhole_whole _) _ _ (iblk m c 0 t) (iblk m c 1 t)
      (outsAt0 m c (t.val - 1) (Nat.lt_of_le_of_lt (Nat.sub_le _ _) t.isLt)).2) ab).trans ?_
    exact step_apply (iblk m c 0 t) (iblk m c 1 t) _ ab
  · rw [outsAt0_B m c t h0 h1]
    dsimp only
    refine (congrFun (sout_B (F := Ideal) c (grid0.coords t) (ms0_0 t) (hs0_0 t) (ms0_1 t) (hs0_1 t) (ms0_2 t) (hs0_2 t) scM0_0 (Memref.isWhole_whole _) _ _ (iblk m c 0 t) (iblk m c 1 t)
      (outsAt0 m c (t.val - 1) (Nat.lt_of_le_of_lt (Nat.sub_le _ _) t.isLt)).2) ab).trans ?_
    exact step_apply (iblk m c 0 t) (iblk m c 1 t) _ ab

/-- At a core's last point the output block ends at the accumulator, recast to [1, 32, 32]. -/
theorem out_last (c : Dev nD) (t : Fin cfg0.N) (h1 : t.val % 256 = 255) :
    (outsAt0 m c t.val t.isLt).1 = k0_pay2 ((outsAt0 m c t.val t.isLt).2) := by
  have h0 : ¬t.val % 256 = 0 := by omega
  rw [outsAt0_C m c t h0 h1]
  dsimp only
  rw [out_C (F := Ideal) c (grid0.coords t) (ms0_0 t) (hs0_0 t) (ms0_1 t) (hs0_1 t) (ms0_2 t) (hs0_2 t) scM0_0 (Memref.isWhole_whole _) _ _ (iblk m c 0 t) (iblk m c 1 t) _,
    sout_C (F := Ideal) c (grid0.coords t) (ms0_0 t) (hs0_0 t) (ms0_1 t) (hs0_1 t) (ms0_2 t) (hs0_2 t) scM0_0 (Memref.isWhole_whole _) _ _ (iblk m c 0 t) (iblk m c 1 t) _]

/-- The tile histogram of grid point n (zero past the grid). -/
def tileAt (c : Dev nD) (n : ℕ) (ab : S32x32.Idx) : EReal :=
  if h : n < cfg0.N then tile (iblk m c 0 ⟨n, h⟩) (iblk m c 1 ⟨n, h⟩) ab else 0

/-- After point n the accumulator holds the tile histograms of its core's points up to n, summed. -/
theorem acc_eq (c : Dev nD) : ∀ (n : ℕ) (h : n < cfg0.N) (ab : S32x32.Idx),
    (outsAt0 m c n h).2 ab = ∑ j ∈ Finset.range (n % 256 + 1), tileAt m c (n - n % 256 + j) ab
  | 0, h, ab => by
    rw [scratch_first m c ⟨0, h⟩ (Nat.zero_mod _) (by show ¬(0 % 256 = 255); decide) ab]
    simp only [Nat.zero_mod, Nat.sub_zero, Nat.zero_add, Finset.sum_range_one, zero_add]
    unfold tileAt
    rw [dif_pos h]
  | n + 1, h, ab => by
    by_cases h0 : (n + 1) % 256 = 0
    · have h1 : ¬(n + 1) % 256 = 255 := by omega
      rw [scratch_first m c ⟨n + 1, h⟩ h0 h1 ab, h0]
      simp only [Nat.sub_zero, Nat.zero_add, Finset.sum_range_one, zero_add, Nat.add_zero]
      unfold tileAt
      rw [dif_pos h]
    · have ih := acc_eq c n (Nat.lt_of_succ_lt h) ab
      rw [scratch_next m c ⟨n + 1, h⟩ h0 ab]
      show (outsAt0 m c n _).2 ab + _ = _
      rw [ih]
      have e1 : (n + 1) % 256 = n % 256 + 1 := by omega
      have e2 : n + 1 - (n % 256 + 1) = n - n % 256 := by omega
      have e3 : n - n % 256 + (n % 256 + 1) = n + 1 := by omega
      rw [e1, e2, Finset.sum_range_succ (fun j => tileAt m c (n - n % 256 + j) ab) (n % 256 + 1), e3]
      congr 1
      unfold tileAt
      rw [dif_pos h]

/-! ## The array the region leaves -/

/-- Point t writes back block t / 256 of the output array, at zero offsets on the two histogram axes. -/
theorem out_index : ∀ t : Fin cfg0.N, win0_2.index t (0 : Fin 3) = t.val / 256
    ∧ win0_2.index t (1 : Fin 3) = 0 ∧ win0_2.index t (2 : Fin 3) = 0 :=
  (by decide +kernel : ∀ t : Fin grid0.N, _)

/-- The output array: core c's 32 × 32 block is the sum of that core's 256 tile histograms. -/
def outArr (c : Dev nD) : S2x32x32.Idx → EReal := fun i =>
  ∑ j ∈ Finset.range 256, tileAt m c (256 * (i 0).val + j) (ix2 (i 1) (i 2))

/-- What a core's last point writes back is that core's block of `outArr`. -/
theorem flushed_eq (c : Dev nD) (t : Fin cfg0.N) (hf : (cfg0.win 2).flush t = true) :
    (dats m 0 c).flushed 2 t = ((cfg0.win 2).blk t).view.read (Elt Ideal) (outArr m c) := by
  have h1 : t.val % 256 = 255 := (flush0_2 t).mp hf
  have hN : t.val < 512 := lt_of_lt_of_eq t.isLt (show cfg0.N = 512 from N_0)
  obtain ⟨e0, e1, e2⟩ := out_index t
  show (cfg0.win 2).cut (grid0.coords t) ((dats m 0 c).after 2 t) = _
  rw [after0_2, out_last m c t h1]
  funext y
  obtain ⟨u, p, q, rfl⟩ : ∃ (u : Fin 1) (p q : Fin 32), y = ix3 u p q := ⟨y 0, y 1, y 2, eq_ix3 y⟩
  show k0_pay2 ((outsAt0 m c t.val t.isLt).2) (ix3 u p q) = outArr m c (((cfg0.win 2).blk t).view.emb (ix3 u p q))
  have hemb : ((cfg0.win 2).blk t).view.emb (ix3 u p q) = ix3 (⟨t.val / 256, by omega⟩ : Fin 2) p q := by
    funext a
    apply Fin.ext
    have hu : u.val = 0 := by omega
    match a with
    | ⟨0, _⟩ => show win0_2.index t (0 : Fin 3) * 1 + 1 * u.val = t.val / 256; omega
    | ⟨1, _⟩ => show win0_2.index t (1 : Fin 3) * 32 + 1 * p.val = p.val; omega
    | ⟨2, _⟩ => show win0_2.index t (2 : Fin 3) * 32 + 1 * q.val = q.val; omega
  rw [hemb]
  unfold k0_pay2
  rw [shapeCast_ab_1ab_apply, acc_eq m c t.val t.isLt (ix2 p q), h1]
  unfold outArr
  have e : t.val - 255 = 256 * (t.val / 256) := by omega
  rw [e]

/-- An index of the output array lies in point t's block iff each coordinate is in the block's range. -/
theorem mem_blk (t : Fin cfg0.N) (i : S2x32x32.Idx) :
    i ∈ ((cfg0.win 2).blk t).view.set ↔ ∀ a : Fin 3, win0_2.index t a * S1x32x32.size a ≤ (i a).val
      ∧ (i a).val < win0_2.index t a * S1x32x32.size a + S1x32x32.size a := by
  show i ∈ ((View.whole main_v2).slice (win0_2.rect t)).set ↔ _
  rw [View.set_slice_whole, Rect.mem_set_unit]
  exact Iff.rfl

/-- Every index of the output array is in the block some core's last point writes back. -/
theorem covered (i : S2x32x32.Idx) :
    ∃ t : Fin cfg0.N, (cfg0.win 2).flush t = true ∧ i ∈ ((cfg0.win 2).blk t).view.set := by
  have hi0 : (i 0).val < 2 := (i 0).isLt
  have hi1 : (i 1).val < 32 := (i 1).isLt
  have hi2 : (i 2).val < 32 := (i 2).isLt
  have hN : cfg0.N = 512 := N_0
  let t : Fin cfg0.N := ⟨256 * (i 0).val + 255, by rw [hN]; omega⟩
  have ht : t.val = 256 * (i 0).val + 255 := rfl
  obtain ⟨e0, e1, e2⟩ := out_index t
  refine ⟨t, (flush0_2 t).mpr (by rw [ht]; omega), ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 32 ≤ (i 1).val ∧ (i 1).val < win0_2.index t (1 : Fin 3) * 32 + 32; omega
  | ⟨2, _⟩ => show win0_2.index t (2 : Fin 3) * 32 ≤ (i 2).val ∧ (i 2).val < win0_2.index t (2 : Fin 3) * 32 + 32; omega

/-- So the region leaves the output array at `outArr`. -/
theorem final_out (c : Dev nD) : (dats m 0 c).arrAt 2 cfg0.N = outArr m c :=
  (dats m 0 c).arrAt_eq_of_cover 2 (outArr m c) (flushed_eq m c) (covered)

end Cert.KernelIdeal.KValue

end
-- ==== Proof.LibTileSums.lean ====
/-
  Two re-indexings of finite sums over a commutative monoid: the rows of a 4096-row array grouped into 512 tiles
  of 8 rows, and the 512 tiles grouped into 2 halves of 256.
-/
import Mathlib
import Idealize.ShloMosaic.Lib.ValueIdx

namespace Cert.Hist

open Idealize.ShloMosaic Idealize.ShloMosaic.ValueIdx

/-- A row number below 4096 is 8 · t + r for exactly one tile t below 512 and one row r below 8 of the tile. -/
def tileEquiv : Fin 512 × Fin 8 ≃ Fin 4096 where
  toFun p := ⟨8 * p.1.val + p.2.val, by omega⟩
  invFun R := (⟨R.val / 8, by omega⟩, ⟨R.val % 8, by omega⟩)
  left_inv p := by
    rcases p with ⟨t, r⟩
    refine Prod.ext (Fin.ext ?_) (Fin.ext ?_)
    · show (8 * t.val + r.val) / 8 = t.val
      omega
    · show (8 * t.val + r.val) % 8 = r.val
      omega
  right_inv R := by
    refine Fin.ext ?_
    show 8 * (R.val / 8) + R.val % 8 = R.val
    omega

/-- The sum over a 4096 × 8192 array is the sum over 512 tiles of the sum over the 8 rows of a tile of the sum
    along the row: row 8 · t + r is row r of tile t. -/
theorem sum_rows_tiles {M : Type*} [AddCommMonoid M] (f : (⟨2, ![4096, 8192]⟩ : Shape).Idx → M) :
    ∑ t : Fin 512, ∑ r : Fin 8, ∑ k : Fin 8192, f (ix2 (⟨8 * t.val + r.val, by omega⟩ : Fin 4096) k)
      = ∑ i, f i := by
  rw [sum_idx2, ← Equiv.sum_comp tileEquiv (fun R => ∑ k : Fin 8192, f (ix2 R k)), Fintype.sum_prod_type]
  exact Finset.sum_congr rfl fun t _ => Finset.sum_congr rfl fun r _ => rfl

/-- The sum over 512 consecutive numbers is the sum over 2 halves of the sum over the 256 numbers of a half:
    number 256 · c + j is number j of half c. -/
theorem sum_cores {M : Type*} [AddCommMonoid M] (F : ℕ → M) :
    ∑ c : Fin 2, ∑ j ∈ Finset.range 256, F (256 * c.val + j) = ∑ t : Fin 512, F t.val := by
  rw [Fin.sum_univ_two, Fin.sum_univ_eq_sum_range (fun t => F t) 512,
    show ∑ x ∈ Finset.range 512, F x = _ from Finset.sum_range_add F 256 256]
  simp

end Cert.Hist
-- ==== Proof.KRun.lean ====
/-
  The kernel's run, read at its result.

  The host reshapes each volume to [4096, 8192]; grid point t reads rows 8t … 8t+7 of both.  After the region
  the host adds the two cores' blocks of the output array, which gives the joint histogram of the two volumes
  (every voxel is an entry of exactly one row of exactly one tile), and applies the read-out.
-/
import proofs.«102625_j87789131530707_2_alg».proof.Proof.KAccum
import proofs.«102625_j87789131530707_2_alg».proof.Proof.LibTileSums
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (m : (ℓ : Loc nD τ sig) → Buf (Elt Ideal) ℓ) (ρ : Dev nD → PrngReg)

/-- The two volumes as the kernel's caller holds them. -/
abbrev volI (c : Dev nD) : FVec Ideal S2x256x256x256 .f32 := m ((c : Thread nD τ).loc main_arg0)
abbrev volJ (c : Dev nD) : FVec Ideal S2x256x256x256 .f32 := m ((c : Thread nD τ).loc main_arg1)

/-- The region finds the first volume reshaped to [4096, 8192]. -/
theorem V_v0 (c : Dev nD) : (V m c main_v0 : S4096x8192.Idx → EReal)
    = shapeCast S4096x8192 (volI m c) shapeCasts_S2x256x256x256_S4096x8192 := by
  show StableHlo.after hostOps0 (fun b => m (c, b)) (Proc.devRef .tc main_v0) = _
  after_results
  rfl

/-- And the second. -/
theorem V_v1 (c : Dev nD) : (V m c main_v1 : S4096x8192.Idx → EReal)
    = shapeCast S4096x8192 (volJ m c) shapeCasts_S2x256x256x256_S4096x8192 := by
  show StableHlo.after hostOps0 (fun b => m (c, b)) (Proc.devRef .tc main_v1) = _
  after_results
  rfl

/-- Point t reads block t of both input windows, at column offset 0. -/
theorem in_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Entry (r, k) of point t's block of the first volume is entry (8t + r, k) of the reshaped volume. -/
theorem iblk0_apply (c : Dev nD) (t : Fin cfg0.N) (r : Fin 8) (k : Fin 8192) (hr : 8 * t.val + r.val < 4096) :
    (iblk m c 0 t : Vec Ideal S8x8192 .f32) (ix2 r k)
      = shapeCast S4096x8192 (volI m c) shapeCasts_S2x256x256x256_S4096x8192 (ix2 (⟨8 * t.val + r.val, hr⟩ : Fin 4096) k) := by
  obtain ⟨e0, e1, -, -⟩ := in_index t
  unfold iblk
  rw [View.read_apply]
  show V m c main_v0 (((cfg0.win 0).blk t).view.emb (ix2 r k)) = _
  rw [V_v0]
  congr 1
  funext a
  apply Fin.ext
  match a with
  | ⟨0, _⟩ => show win0_0.index t (0 : Fin 2) * 8 + 1 * r.val = 8 * t.val + r.val; omega
  | ⟨1, _⟩ => show win0_0.index t (1 : Fin 2) * 8192 + 1 * k.val = k.val; omega

theorem iblk1_apply (c : Dev nD) (t : Fin cfg0.N) (r : Fin 8) (k : Fin 8192) (hr : 8 * t.val + r.val < 4096) :
    (iblk m c 1 t : Vec Ideal S8x8192 .f32) (ix2 r k)
      = shapeCast S4096x8192 (volJ m c) shapeCasts_S2x256x256x256_S4096x8192 (ix2 (⟨8 * t.val + r.val, hr⟩ : Fin 4096) k) := by
  obtain ⟨-, -, e0, e1⟩ := in_index t
  unfold iblk
  rw [View.read_apply]
  show V m c main_v1 (((cfg0.win 1).blk t).view.emb (ix2 r k)) = _
  rw [V_v1]
  congr 1
  funext a
  apply Fin.ext
  match a with
  | ⟨0, _⟩ => show win0_1.index t (0 : Fin 2) * 8 + 1 * r.val = 8 * t.val + r.val; omega
  | ⟨1, _⟩ => show win0_1.index t (1 : Fin 2) * 8192 + 1 * k.val = k.val; omega

/-- Whether a pair of intensities falls in bin pair (a, b), as a 0/1 count. -/
def hit (ab : S32x32.Idx) (x y : EReal) : EReal :=
  if Cert.Hist.bin x = BitVec.ofNat 32 (ab 0).val ∧ Cert.Hist.bin y = BitVec.ofNat 32 (ab 1).val then 1 else 0

/-- The tile histogram of point t counts the hits in rows 8t … 8t+7 of the reshaped volumes. -/
theorem tileAt_eq (c : Dev nD) (t : Fin 512) (ab : S32x32.Idx) :
    tileAt m c t.val ab = ∑ r : Fin 8, ∑ k : Fin 8192,
      hit ab (shapeCast S4096x8192 (volI m c) shapeCasts_S2x256x256x256_S4096x8192 (ix2 (⟨8 * t.val + r.val, by omega⟩ : Fin 4096) k))
        (shapeCast S4096x8192 (volJ m c) shapeCasts_S2x256x256x256_S4096x8192 (ix2 (⟨8 * t.val + r.val, by omega⟩ : Fin 4096) k)) := by
  have hN : cfg0.N = 512 := N_0
  have ht : t.val < cfg0.N := by rw [hN]; exact t.isLt
  unfold tileAt
  rw [dif_pos ht]
  unfold tile hit
  refine Finset.sum_congr rfl fun r _ => Finset.sum_congr rfl fun k _ => ?_
  rw [iblk0_apply m c ⟨t.val, ht⟩ r k (by have := t.isLt; have := r.isLt; show 8 * t.val + r.val < 4096; omega),
    iblk1_apply m c ⟨t.val, ht⟩ r k (by have := t.isLt; have := r.isLt; show 8 * t.val + r.val < 4096; omega)]

/-- The two cores' blocks added up: the joint histogram of the two volumes. -/
theorem cores_sum (c : Dev nD) (ab : S32x32.Idx) :
    ∑ cc : Fin 2, ∑ j ∈ Finset.range 256, tileAt m c (256 * cc.val + j) ab = Cert.Hist.hist (volI m c) (volJ m c) ab := by
  rw [Cert.Hist.sum_cores (fun n => tileAt m c n ab)]
  simp only [tileAt_eq]
  rw [Cert.Hist.sum_rows_tiles (fun i => hit ab (shapeCast S4096x8192 (volI m c) shapeCasts_S2x256x256x256_S4096x8192 i)
    (shapeCast S4096x8192 (volJ m c) shapeCasts_S2x256x256x256_S4096x8192 i))]
  unfold shapeCast Cert.Hist.hist hit
  exact Equiv.sum_comp (Shape.reshapeEquiv shapeCasts_S2x256x256x256_S4096x8192)
    (fun e => if Cert.Hist.bin (volI m c e) = BitVec.ofNat 32 (ab 0).val ∧ Cert.Hist.bin (volJ m c e) = BitVec.ofNat 32 (ab 1).val then (1 : EReal) else 0)

theorem reduces_cores : S2x32x32.Reduces [0] S32x32 := by decide

/-- The host's sum of the output array over the core axis is the joint histogram. -/
theorem hist_eq (c : Dev nD) :
    Host.reduceAdd (F := Ideal) (outArr m c) (constant (F := Ideal) S_ .f32 0x00000000#32) reducesTo_S2x32x32_S32x32_d0 h_S_
      = Cert.Hist.hist (volI m c) (volJ m c) := by
  funext ab
  obtain ⟨a, b, rfl⟩ : ∃ (a b : Fin 32), ab = ix2 a b := ⟨ab 0, ab 1, eq_ix2 ab⟩
  refine (Ideal.hostReduceAdd_single reducesTo_S2x32x32_S32x32_d0 reduces_cores (outArr m c) _ (ix2 a b)).trans ?_
  rw [← cores_sum m c (ix2 a b)]
  show Ideal.ofBits .f32 0x00000000#32 + _ = _
  rw [Ideal.ofBits_zero_f32, zero_add]
  refine Finset.sum_congr rfl fun cc _ => ?_
  have hl : reduces_cores.lift (ix2 a b) cc = ix3 cc a b := by
    funext d
    apply Fin.ext
    match d with
    | ⟨0, _⟩ => rfl
    | ⟨1, _⟩ => rfl
    | ⟨2, _⟩ => rfl
  rw [hl]
  rfl

end Cert.KernelIdeal.KValue

end
-- ==== Proof.KResult.lean ====
/-
  The kernel's result: the host's tail after the region is the read-out of the joint histogram.

  After the region the output array holds each core's sum of tile histograms; the host adds the two cores'
  blocks — the joint histogram — and applies the read-out, operation for operation the specification's.
-/
import proofs.«102625_j87789131530707_2_alg».proof.Proof.KRun

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (m : (ℓ : Loc nD τ sig) → Buf (Elt Ideal) ℓ) (ρ : Dev nD → PrngReg)

/-- After the region the buffer of the output window holds `outArr`. -/
theorem out_after (c : Dev nD) :
    Pipeline.withArrays (cfgs 0).spec c (V0 m c) (fun w => (dats m 0 c).arrAt w (cfgs 0).N) (Proc.devRef .tc main_v2)
      = outArr m c :=
  (Pipeline.withArrays_arr spec0 launch0.win.arr_inj c _ _ 2).trans (final_out m c)

set_option maxHeartbeats 4000000 in
/-- The result buffer after the host's tail: the read-out of the joint histogram. -/
theorem result_eq (c : Dev nD) :
    Pipeline.afterTail₀ cfgs (dats m) 0 (V0 m) [hostOps1] c main_v30
      = Cert.Hist.tail (Cert.Hist.hist (volI m c) (volJ m c)) := by
  unfold Pipeline.afterTail₀
  simp only [List.flatten_cons, List.flatten_nil, List.append_nil]
  after_results
  rw [out_after m c, hist_eq m c]
  rfl

/-- The kernel's run, read: the result at the read-out of the joint histogram of the two volumes, the
    volumes unchanged. -/
theorem run : θ_run defs (onTc (τ := τ) (main (F := Ideal))) ⟨m, fun _ => 0, ρ⟩ fun r => ∀ c : Dev nD,
      r.2.mem ((c : Thread nD τ).loc main_v30) = Cert.Hist.tail (Cert.Hist.hist (volI m c) (volJ m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v30 (Pipeline.mem_restRefs_of main_v30 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefImports.lean ====
/- The reference's run and its read-at-an-index lemmas, brought in for the modules that follow. -/
import proofs.«102625_j87789131530707_2_alg».proof.Proof.Gen.ReferenceIdeal.Run
import proofs.«102625_j87789131530707_2_alg».proof.Proof.Gen.ReferenceIdeal.Read
-- ==== Proof.RefHistTail.lean ====
/-
  The reference's result is the read-out of its own joint histogram.

  The reference computes a 32×32 array (the reshaped accumulation of ones, `histR`) and then applies, operation
  for operation and literal for literal, the read-out `Cert.Hist.tail`.  The shape side conditions are
  propositions, so the two terms agree by unfolding.
-/
import proofs.«102625_j87789131530707_2_alg».proof.Proof.RefImports
import proofs.«102625_j87789131530707_2_alg».proof.Proof.HistSpec

noncomputable section

namespace Cert.ReferenceIdeal.RefValue

open Cert.ReferenceIdeal Cert.ReferenceIdeal.Gen Idealize.ShloMosaic

/-- The reference's joint histogram: the accumulation of ones over 1024 zeros, read as a 32×32 array. -/
def histR (I J : FVec Ideal S2x256x256x256 .f32) : FVec Ideal S32x32 .f32 :=
  Read.val_main_v24 (F := Ideal) I J

/-- The reference's result is the read-out of `histR`. -/
theorem result_eq_tail (I J : FVec Ideal S2x256x256x256 .f32) :
    Read.val_main_v51 (F := Ideal) I J = Cert.Hist.tail (histR I J) := by
  simp only [Read.val_main_v51, Read.val_main_cst_15, Read.val_main_v50, Read.val_main_cst_14, Read.val_main_v49, Read.val_main_v48, Read.val_main_v47, Read.val_main_v46, Read.val_main_cst_13, Read.val_main_v45, Read.val_main_v44, Read.val_main_v43, Read.val_main_v42, Read.val_main_v41, Read.val_main_v40, Read.val_main_cst_12, Read.val_main_v39, Read.val_main_v38, Read.val_main_v37, Read.val_main_v36, Read.val_main_v35, Read.val_main_v34, Read.val_main_cst_11, Read.val_main_v33, Read.val_main_v32, Read.val_main_v31, Read.val_main_v30, Read.val_main_cst_10, Read.val_main_v29, Read.val_main_cst_9, Read.val_main_v28, Read.val_main_cst_8, Read.val_main_v27, Read.val_main_v26, Read.val_main_v25, Read.val_main_cst_7]
  rfl

end Cert.ReferenceIdeal.RefValue

end
-- ==== Proof.RefHistScatter.lean ====
/-
  The reference's joint histogram read at an entry.

  The histogram is an accumulation: 1024 zeros, and for each of the 33,554,432 flat voxel positions e a one
  added at the position the signed 32-bit index of e names (dropped when that is outside 0 … 1023).  The
  accumulation's dimension numbers say: the start of update e is the index stored in row e (column 0) of the
  index array, its window coordinate is 0.  So update e lands on position f exactly when that index, read
  signed, is f; and entry (a, b) of the 32×32 reshape is position 32·a + b.

  The sums here range over 33,554,432 positions and are never evaluated: the accumulation is opened by a
  congruence stated for arbitrary shapes, and instantiated afterwards.
-/
import proofs.«102625_j87789131530707_2_alg».proof.Proof.RefHistTail
import Idealize.ShloMosaic.Lib.IdealHost

noncomputable section

namespace Cert.ReferenceIdeal.RefValue

open Cert.ReferenceIdeal Cert.ReferenceIdeal.Gen Idealize.ShloMosaic

/-- An accumulating scatter read at a position: when the operand there is `x0`, every update is the constant `c`,
    and update `j` lands on the position exactly when `p j`, the value is `x0` plus one `c` for every `j` with `p j`. -/
theorem hostScatterAdd_const {s si su : Shape} (d : ScatterDims s si su) {w : Nat} (x : s.Idx → EReal) (idx : IVec si w)
    (upd : su.Idx → EReal) (i : s.Idx) (p : su.Idx → Prop) [DecidablePred p] (x0 c : EReal)
    (hx : x i = x0) (hp : ∀ j, d.resultIdx? j idx = some i ↔ p j) (hu : ∀ j, upd j = c) :
    Ideal.hostScatterAdd d x idx upd i = x0 + ∑ j ∈ Finset.univ.filter p, c := by
  unfold Ideal.hostScatterAdd
  rw [hx]
  exact congrArg (x0 + ·) (Finset.sum_congr (Finset.filter_congr fun j _ => hp j) fun j _ => hu j)

/-- The accumulation's dimension numbers. -/
abbrev dS : ScatterDims S1024 S33554432x1 S33554432 := scatter_S1024_S33554432x1_S33554432_n_0_0_1

/-- The scatter-indices position update `e` reads its start from: row `e`, column 0. -/
def rowOf (e : S33554432.Idx) : S33554432x1.Idx := fun b =>
  match b with
  | ⟨0, _⟩ => ⟨(e 0).val, (e 0).isLt⟩
  | ⟨1, _⟩ => ⟨0, by show (0 : ℕ) < 1; exact Nat.one_pos⟩

theorem siIdx_eq (e : S33554432.Idx) (c : Fin dS.scatterDimsToOperandDims.length) :
    dS.siIdx e c = rowOf e := by
  funext b
  apply Fin.ext
  match b with
  | ⟨0, _⟩ =>
    unfold ScatterDims.siIdx
    rw [dif_neg (by show ¬ ((0 : ℕ) = 1); omega)]
    unfold ScatterDims.siCoord
    simp only [Fin.val_cast]
    show (e _).val = (e 0).val
    congr 2 <;> exact Subsingleton.elim _ _
  | ⟨1, _⟩ =>
    unfold ScatterDims.siIdx
    rw [dif_pos (by rfl)]
    show c.val = 0
    have := c.isLt
    have hl : dS.scatterDimsToOperandDims.length = 1 := rfl
    omega

theorem start_eq {w : Nat} (e : S33554432.Idx) (idx : IVec S33554432x1 w) (a : Fin S1024.rank) :
    dS.start e idx a = (idx (rowOf e)).toInt := by
  unfold ScatterDims.start
  have ha : a ∈ dS.scatterDimsToOperandDims := by
    have : a = 0 := Subsingleton.elim _ _
    subst this
    exact List.mem_singleton.2 rfl
  rw [dif_pos ha, siIdx_eq]

theorem window_eq (e : S33554432.Idx) (a : Fin S1024.rank) : dS.window e a = 0 := by
  unfold ScatterDims.window
  rw [dif_neg]
  have : a = 0 := Subsingleton.elim _ _
  subst this
  decide

/-- Update `e` lands on operand position `i` exactly when the signed index it reads is `i`. -/
theorem resultIdx?_eq_some_iff {w : Nat} (e : S33554432.Idx) (idx : IVec S33554432x1 w) (i : S1024.Idx) :
    dS.resultIdx? e idx = some i ↔ (idx (rowOf e)).toInt = ((i 0).val : Int) := by
  unfold ScatterDims.resultIdx?
  simp only [start_eq, window_eq, Nat.cast_zero, add_zero]
  constructor
  · intro h
    split at h
    · rename_i hh
      have h1 := Option.some.inj h
      have h2 := congrFun h1 0
      have h3 := congrArg Fin.val h2
      simp only at h3
      have := (hh 0).1
      omega
    · exact absurd h (by simp)
  · intro h
    have hi : (i 0).val < 1024 := (i 0).isLt
    rw [dif_pos]
    · congr 1
      funext a
      have : a = 0 := Subsingleton.elim _ _
      subst this
      apply Fin.ext
      simp only
      omega
    · intro a
      obtain rfl : a = 0 := Subsingleton.elim _ _
      show 0 ≤ _ ∧ _ < ((1024 : ℕ) : ℤ)
      omega

/-- Row `e`, column 0 of the index array is entry `e` of the flat index vector it was broadcast from. -/
theorem idx_rowOf (e : S33554432.Idx) : Read.idx_main_v21 (rowOf e) = e := by
  funext a
  obtain rfl : a = 0 := Subsingleton.elim _ _
  exact Fin.ext rfl

/-- The accumulation is the ideal instance's accumulating scatter of the ones onto the zeros. -/
theorem v23_eq (I J : FVec Ideal S2x256x256x256 .f32) :
    Read.val_main_v23 (F := Ideal) I J
      = Ideal.hostScatterAdd dS (Read.val_main_v15 (F := Ideal)) (Read.val_main_v21 (F := Ideal) I J)
          (Read.val_main_v22 (F := Ideal)) := rfl

/-- Entry (a, b) of the 32×32 reshape is flat position 32·a + b. -/
theorem idx24_val (ab : S32x32.Idx) : (Read.idx_main_v24 ab 0).val = (ab 0).val * 32 + (ab 1).val := rfl

/-- Entry (a, b) of the reference's histogram: zero plus a one for every flat voxel position whose signed
    index is 32·a + b. -/
theorem histR_apply (I J : FVec Ideal S2x256x256x256 .f32) (ab : S32x32.Idx) :
    histR I J ab = 0 + ∑ e ∈ Finset.univ.filter (fun e : S33554432.Idx =>
      (Read.val_main_v20 (F := Ideal) I J e).toInt = (((ab 0).val * 32 + (ab 1).val : ℕ) : ℤ)), (1 : EReal) := by
  unfold histR
  rw [Read.val_main_v24_apply, v23_eq]
  refine hostScatterAdd_const dS _ _ _ _ _ 0 1 ?_ (fun e => ?_) (fun e => ?_)
  · rw [Read.val_main_v15_apply, Read.val_main_cst_4_apply]
    exact Ideal.ofBits_zero_f32
  · rw [resultIdx?_eq_some_iff, Read.val_main_v21_apply, idx_rowOf, idx24_val]
  · rw [Read.val_main_v22_apply, Read.val_main_cst_6_apply]
    exact Ideal.ofBits_one_f32

end Cert.ReferenceIdeal.RefValue

end
-- ==== Proof.RefHistVoxel.lean ====
/-
  One voxel of the reference's index computation.

  At a voxel whose two quantised intensities are the naturals nI, nJ ≤ 31 the float index nI · 32 + nJ is the
  natural 32 nI + nJ ≤ 1023 exactly (the literal 0x42000000 is the real 32); its conversion to a signed 32-bit
  integer is that natural's pattern; the pattern is not negative, so the wrap-around of negative indices keeps
  it; and read signed it is 32 nI + nJ again.
-/
import proofs.«102625_j87789131530707_2_alg».proof.Proof.RefImports
import proofs.«102625_j87789131530707_2_alg».proof.Proof.HistSpec
import Idealize.ShloMosaic.Lib.IdealHost

noncomputable section

namespace Cert.ReferenceIdeal.RefValue

open Cert.ReferenceIdeal Cert.ReferenceIdeal.Gen Idealize.ShloMosaic

/-- The f32 pattern 0x42000000 is the real 32. -/
theorem ofBits_32 : Ideal.ofBits .f32 0x42000000#32 = ((32 : ℝ) : EReal) := by
  simp [Ideal.ofBits, Ideal.ieee, -EReal.coe_mul]; norm_num

/-- Converting a natural number below 2³¹, as a real, to a signed 32-bit integer gives that number. -/
theorem fptosi_natCast (N : ℕ) (h : N < 2 ^ 31) :
    Ideal.fptosi 32 (((N : ℝ)) : EReal) = BitVec.ofNat 32 N := by
  unfold Ideal.fptosi
  rw [Ideal.toIntClamped_coe, if_pos (Nat.cast_nonneg N), Int.floor_natCast]
  have h1 : max (-((2 ^ (32 - 1) : ℕ) : ℤ)) (min (((2 ^ (32 - 1) : ℕ) : ℤ) - 1) (N : ℤ)) = (N : ℤ) := by
    norm_num
    omega
  rw [h1]
  exact BitVec.ofInt_natCast 32 N

/-- Two naturals below 2³² with the same 32-bit pattern are equal. -/
theorem ofNat_inj_small (x y : ℕ) (hx : x < 2 ^ 32) (hy : y < 2 ^ 32) :
    BitVec.ofNat 32 x = BitVec.ofNat 32 y ↔ x = y := by
  constructor
  · intro h
    have h2 := congrArg BitVec.toNat h
    rw [BitVec.toNat_ofNat, BitVec.toNat_ofNat, Nat.mod_eq_of_lt hx, Nat.mod_eq_of_lt hy] at h2
    exact h2
  · intro h; rw [h]

/-- A natural below 2³¹, as a 32-bit pattern read signed, is itself. -/
theorem toInt_ofNat_small (N : ℕ) (h : N < 2 ^ 31) : (BitVec.ofNat 32 N).toInt = (N : ℤ) := by
  have hN : (BitVec.ofNat 32 N).toNat = N := by
    rw [BitVec.toNat_ofNat]; exact Nat.mod_eq_of_lt (by omega)
  rw [BitVec.toInt_eq_toNat_of_lt (by rw [hN]; omega), hN]

/-- A 32-bit pattern of a natural below 2³¹ is not negative, so the wrap-around of negative indices keeps it. -/
theorem select_keep (N : ℕ) (h : N < 2 ^ 31) :
    Scalar.select (IntOp.cmpi .slt (BitVec.ofNat 32 N) 0#32) (IntOp.addi (BitVec.ofNat 32 N) 1024#32) (BitVec.ofNat 32 N)
      = BitVec.ofNat 32 N := by
  have hs : (BitVec.ofNat 32 N).slt 0#32 = false := by
    rw [BitVec.slt, toInt_ofNat_small N h]
    simp
  unfold Scalar.select IntOp.cmpi
  simp only [hs]
  rfl

theorem v4_apply (I : FVec Ideal S2x256x256x256 .f32) (k : S2x256x256x256.Idx) :
    Read.val_main_v4 (F := Ideal) I k = Cert.Hist.quant (I k) := rfl

theorem v9_apply (J : FVec Ideal S2x256x256x256 .f32) (k : S2x256x256x256.Idx) :
    Read.val_main_v9 (F := Ideal) J k = Cert.Hist.quant (J k) := rfl

/-- A flat voxel position and the 4-d index with the same row-major position. -/
abbrev flat : S33554432.Idx ≃ S2x256x256x256.Idx := Shape.reshapeEquiv shapeCasts_S2x256x256x256_S33554432

/-- The flattened index array at position `e` is the 4-d one at the matching index. -/
theorem v14_apply (I J : FVec Ideal S2x256x256x256 .f32) (e : S33554432.Idx) :
    Read.val_main_v14 (F := Ideal) I J e = Read.val_main_v13 (F := Ideal) I J (flat e) := rfl

/-- At a voxel whose two quantised intensities are the naturals nI, nJ ≤ 31, the index the accumulation reads
    is the 32-bit pattern of 32·nI + nJ: the float index is that natural exactly, its conversion is exact, and
    it is not negative, so the wrap-around of negative indices keeps it. -/
theorem v20_of_quant (I J : FVec Ideal S2x256x256x256 .f32) (e : S33554432.Idx) (nI nJ : ℕ) (hnI : nI ≤ 31) (hnJ : nJ ≤ 31)
    (hI : Cert.Hist.quant (I (flat e)) = ((nI : ℝ) : EReal)) (hJ : Cert.Hist.quant (J (flat e)) = ((nJ : ℝ) : EReal)) :
    Read.val_main_v20 (F := Ideal) I J e = BitVec.ofNat 32 (nI * 32 + nJ) := by
  have h14 : Read.val_main_v14 (F := Ideal) I J e = BitVec.ofNat 32 (nI * 32 + nJ) := by
    rw [v14_apply, Read.val_main_v13_apply, Read.val_main_v12_apply, Read.val_main_v11_apply, v4_apply, v9_apply,
      Read.val_main_v10_apply, Read.val_main_cst_3_apply, hI, hJ]
    show Ideal.fptosi 32 (((nI : ℝ) : EReal) * Ideal.ofBits .f32 0x42000000#32 + ((nJ : ℝ) : EReal)) = _
    rw [ofBits_32, ← EReal.coe_mul, ← EReal.coe_add]
    have hc : ((nI : ℝ) * 32 + (nJ : ℝ)) = (((nI * 32 + nJ : ℕ)) : ℝ) := by push_cast; ring
    rw [hc]
    exact fptosi_natCast _ (by omega)
  rw [Read.val_main_v20_apply, Read.val_main_v17_apply, Read.val_main_v19_apply, h14, Read.val_main_v16_apply,
    Read.val_main_c_apply, Read.val_main_v18_apply, Read.val_main_c_5_apply]
  exact select_keep _ (by omega)

end Cert.ReferenceIdeal.RefValue

end
-- ==== Proof.RefHistEq.lean ====
/-
  The reference's joint histogram is the specification's, and so its result is the specification's read-out.

  Entry (a, b) of the reference's histogram is a one for every flat voxel position whose signed index is
  32·a + b.  Flat positions and 4-d voxel indices correspond by row-major position, so the sum moves onto the
  voxels.  At a voxel whose quantised intensities are the naturals nI, nJ ≤ 31 the signed index is 32 nI + nJ,
  the two bins are the patterns of nI and nJ, and 32 nI + nJ = 32 a + b exactly when nI = a and nJ = b: the voxel
  counts for the entry the specification counts it for.
-/
import proofs.«102625_j87789131530707_2_alg».proof.Proof.RefHistScatter
import proofs.«102625_j87789131530707_2_alg».proof.Proof.RefHistVoxel

noncomputable section

namespace Cert.ReferenceIdeal.RefValue

open Cert.ReferenceIdeal Cert.ReferenceIdeal.Gen Idealize.ShloMosaic Idealize.ShloMosaic.TcCoe Idealize.SL.Sem

/-- The bin of an intensity whose quantisation is the natural n ≤ 31 is n's pattern. -/
theorem bin_of_quant_nat (x : EReal) (n : ℕ) (hn : n ≤ 31) (h : Cert.Hist.quant x = ((n : ℝ) : EReal)) :
    Cert.Hist.bin x = BitVec.ofNat 32 n := by
  unfold Cert.Hist.bin
  rw [h]
  exact fptosi_natCast n (by omega)

/-- One voxel: its signed index is 32·a + b exactly when its two bins are a and b. -/
theorem voxel_iff (I J : FVec Ideal S2x256x256x256 .f32) (hI : Cert.Hist.Binned I) (hJ : Cert.Hist.Binned J)
    (ab : S32x32.Idx) (e : S33554432.Idx) :
    (Read.val_main_v20 (F := Ideal) I J e).toInt = (((ab 0).val * 32 + (ab 1).val : ℕ) : ℤ)
      ↔ (Cert.Hist.bin (I (flat e)) = BitVec.ofNat 32 (ab 0).val ∧ Cert.Hist.bin (J (flat e)) = BitVec.ofNat 32 (ab 1).val) := by
  obtain ⟨nI, hnI, hqI⟩ := hI (flat e)
  obtain ⟨nJ, hnJ, hqJ⟩ := hJ (flat e)
  have ha : (ab 0).val < 32 := (ab 0).isLt
  have hb : (ab 1).val < 32 := (ab 1).isLt
  rw [v20_of_quant I J e nI nJ hnI hnJ hqI hqJ, toInt_ofNat_small _ (by omega),
    bin_of_quant_nat _ nI hnI hqI, bin_of_quant_nat _ nJ hnJ hqJ,
    ofNat_inj_small _ _ (by omega) (by omega), ofNat_inj_small _ _ (by omega) (by omega)]
  constructor
  · intro h
    have h' : nI * 32 + nJ = (ab 0).val * 32 + (ab 1).val := by exact_mod_cast h
    omega
  · rintro ⟨h1, h2⟩
    rw [h1, h2]

/-- The reference's joint histogram of two binned volumes is the specification's. -/
theorem histR_eq_hist (I J : FVec Ideal S2x256x256x256 .f32) (hI : Cert.Hist.Binned I) (hJ : Cert.Hist.Binned J) :
    histR I J = Cert.Hist.hist I J := by
  funext ab
  rw [histR_apply, zero_add, Finset.sum_filter]
  unfold Cert.Hist.hist
  refine Eq.trans (Finset.sum_congr rfl fun e _ => if_congr (voxel_iff I J hI hJ ab e) rfl rfl) ?_
  exact Equiv.sum_comp flat (fun k : S2x256x256x256.Idx =>
    if Cert.Hist.bin (I k) = BitVec.ofNat 32 (ab 0).val ∧ Cert.Hist.bin (J k) = BitVec.ofNat 32 (ab 1).val then (1 : EReal) else 0)

/-- Every weakly fair execution of the reference from binned arguments ends with the specification's read-out of
    the specification's joint histogram in the result, the arguments unchanged. -/
theorem run (m' : (ℓ : Loc nD τ sig) → Buf (Elt Ideal) ℓ) (ρ' : Dev nD → PrngReg)
    (hI : ∀ c : Dev nD, Cert.Hist.Binned (m' ((c.tc : Thread nD τ).loc main_arg0)))
    (hJ : ∀ c : Dev nD, Cert.Hist.Binned (m' ((c.tc : Thread nD τ).loc main_arg1))) :
    θ_run Cert.ReferenceIdeal.defs (onTc (τ := τ) (main (F := Ideal))) ⟨m', fun _ => 0, ρ'⟩ fun r => ∀ c : Dev nD,
      r.2.mem ((c.tc : Thread nD τ).loc main_v51)
          = Cert.Hist.tail (Cert.Hist.hist (m' ((c.tc : Thread nD τ).loc main_arg0)) (m' ((c.tc : Thread nD τ).loc main_arg1)))
      ∧ r.2.mem ((c.tc : Thread nD τ).loc main_arg0) = m' ((c.tc : Thread nD τ).loc main_arg0)
      ∧ r.2.mem ((c.tc : Thread nD τ).loc main_arg1) = m' ((c.tc : Thread nD τ).loc main_arg1) := by
  refine (θ_run Cert.ReferenceIdeal.defs _ _).mono (fun _ h c => ⟨(h c).1.trans ?_, (h c).2⟩)
    (Cert.ReferenceIdeal.Value.run (F := Ideal) m' ρ')
  rw [Read.val_main_v51_eq, result_eq_tail, histR_eq_hist _ _ (hI c) (hJ c)]

end Cert.ReferenceIdeal.RefValue

end
-- ==== Proof.HistBins.lean ====
/-
  From a range to bins.  A real r in [0, 255] has r / 255 · 31 in [0, 31]; rounding a real of [0, 31] to nearest
  (ties to even) gives one of the integers 0 … 31, and converting that integer to 32 bits gives its own pattern.
-/
import proofs.«102625_j87789131530707_2_alg».proof.Proof.HistSpec
import Mathlib

noncomputable section

namespace Cert.Hist

open Idealize.ShloMosaic

/-- The divisor's pattern denotes the real 255. -/
theorem c255 : Ideal.ofBits .f32 0x437F0000#32 = ((255 : ℝ) : EReal) := by
  simp [Ideal.ofBits, Ideal.ieee, -EReal.coe_mul]; norm_num

/-- The factor's pattern denotes the real 31. -/
theorem c31 : Ideal.ofBits .f32 0x41F80000#32 = ((31 : ℝ) : EReal) := by
  simp [Ideal.ofBits, Ideal.ieee, -EReal.coe_mul]; norm_num

/-- The quantised intensity of a real: r / 255 · 31 rounded to nearest, ties to even. -/
theorem quant_coe (r : ℝ) : quant (r : EReal) = ((Ideal.roundHalfEven (r / 255 * 31) : ℝ) : EReal) := by
  unfold quant
  rw [c255, c31, Ideal.roundeven_def, Ideal.mulf_def, Ideal.divf_def,
    Ideal.div_coe (by norm_num : (255 : ℝ) ≠ 0), ← EReal.coe_mul, ← EReal.coe_mul, Ideal.liftRound_coe]
  congr 3
  ring

/-- Rounding a real of [0, 31] to nearest, ties to even, gives one of the integers 0 … 31. -/
theorem roundHalfEven_mem (t : ℝ) (h0 : 0 ≤ t) (h1 : t ≤ 31) :
    ∃ n : ℕ, n ≤ 31 ∧ Ideal.roundHalfEven t = (n : ℤ) := by
  have hf0 : 0 ≤ ⌊t⌋ := Int.floor_nonneg.mpr h0
  have hf1 : ⌊t⌋ ≤ 31 := by
    have h : ⌊t⌋ ≤ ⌊(31 : ℝ)⌋ := Int.floor_le_floor h1
    simpa using h
  -- when the floor is 31 the real is 31 itself, so the fractional part is 0
  have htop : ⌊t⌋ = 31 → t - (⌊t⌋ : ℝ) = 0 := by
    intro h
    have hle : (⌊t⌋ : ℝ) ≤ t := Int.floor_le t
    rw [h] at hle ⊢
    push_cast at hle ⊢
    linarith
  have key : 0 ≤ Ideal.roundHalfEven t ∧ Ideal.roundHalfEven t ≤ 31 := by
    unfold Ideal.roundHalfEven
    simp only []
    split_ifs with ha hb hc
    · exact ⟨hf0, hf1⟩
    · refine ⟨by omega, ?_⟩
      by_contra hlt
      have h31 : ⌊t⌋ = 31 := by omega
      rw [htop h31] at hb
      norm_num at hb
    · exact ⟨hf0, hf1⟩
    · refine ⟨by omega, ?_⟩
      by_contra hlt
      have h31 : ⌊t⌋ = 31 := by omega
      rw [htop h31] at ha
      norm_num at ha
  exact ⟨(Ideal.roundHalfEven t).toNat, by omega, by omega⟩

/-- A volume whose every entry lies in [0, 255] is binned. -/
theorem binned_of_range (I : S4.Idx → EReal) (h : ∀ e, (0 : EReal) ≤ I e ∧ I e ≤ ((255 : ℝ) : EReal)) :
    Binned I := by
  intro e
  obtain ⟨h0, h1⟩ := h e
  have hnb : I e ≠ ⊥ := fun hb => by rw [hb] at h0; exact absurd h0 (by simp)
  have hnt : I e ≠ ⊤ := fun ht => by rw [ht] at h1; exact absurd h1 (by simp)
  obtain ⟨r, hr⟩ : ∃ r : ℝ, I e = (r : EReal) := ⟨(I e).toReal, (EReal.coe_toReal hnt hnb).symm⟩
  rw [hr] at h0 h1 ⊢
  have h0' : 0 ≤ r := by exact_mod_cast h0
  have h1' : r ≤ 255 := by exact_mod_cast h1
  obtain ⟨n, hn, hq⟩ := roundHalfEven_mem (r / 255 * 31) (by positivity) (by linarith)
  refine ⟨n, hn, ?_⟩
  rw [quant_coe, hq, Int.cast_natCast]

/-- The bin of a value whose quantised intensity is the integer n ≤ 31 is n's 32-bit pattern. -/
theorem bin_of_quant (x : EReal) (n : ℕ) (hn : n ≤ 31) (h : quant x = ((n : ℝ) : EReal)) :
    bin x = BitVec.ofNat 32 n := by
  unfold bin
  rw [h]
  show Ideal.fptosi 32 ((n : ℝ) : EReal) = _
  unfold Ideal.fptosi
  rw [Ideal.toIntClamped_coe, if_pos (Nat.cast_nonneg n), Int.floor_natCast]
  have hc : max (-((2 ^ (32 - 1) : ℕ) : ℤ)) (min (((2 ^ (32 - 1) : ℕ) : ℤ) - 1) (n : ℤ)) = (n : ℤ) := by
    norm_num
    omega
  rw [hc, BitVec.ofInt_natCast]

end Cert.Hist

end
-- ==== Proof.PreBinned.lean ====
/-
  The precondition gives binned volumes.  It is the conjunction of six all-quantified
  comparisons; four of them say that every entry of either volume is at least 0 and at most 255, which is the
  range that makes a volume binned.
-/
import proofs.«102625_j87789131530707_2_alg».proof.Proof.Gen.Pre_finite_inputs
import proofs.«102625_j87789131530707_2_alg».proof.Proof.HistBins
import Idealize.ShloMosaic.Lib.ReduceAll
import Idealize.ShloMosaic.Lib.IdealHost
import Idealize.ShloMosaic.PureOps.Ideal.Laws

noncomputable section

namespace Cert.Hist

open Idealize.ShloMosaic

/-- A rank-0 shape has one index. -/
instance subsingleton_scalar_idx : Subsingleton Cert.Pre_finite_inputs.S_.Idx :=
  ⟨fun _ _ => funext fun d => d.elim0⟩

/-- The comparison "at least" that came out 1 is the order of the extended reals. -/
theorem le_of_cmp_oge {x y : EReal} (h : Ideal.cmp .oge x y = 1#1) : y ≤ x := by
  by_cases hle : y ≤ x
  · exact hle
  · simp [Ideal.cmp, hle] at h

/-- The comparison "at most" that came out 1 is the order of the extended reals. -/
theorem le_of_cmp_ole {x y : EReal} (h : Ideal.cmp .ole x y = 1#1) : x ≤ y := by
  by_cases hle : x ≤ y
  · exact hle
  · simp [Ideal.cmp, hle] at h

variable (hb : Cert.Pre_finite_inputs.S_.BroadcastsInDim Cert.Pre_finite_inputs.S2x256x256x256
  (![] : Fin 0 → Fin Cert.Pre_finite_inputs.S2x256x256x256.rank))

/-- An entry compared "at least" against the broadcast zero word. -/
theorem entry_ge_zero (I : FVec Ideal Cert.Pre_finite_inputs.S2x256x256x256 .f32)
    (e : Cert.Pre_finite_inputs.S2x256x256x256.Idx)
    (h : cmpf .oge I (broadcastInDim Cert.Pre_finite_inputs.S2x256x256x256 ![] hb
      (constant (F := Ideal) Cert.Pre_finite_inputs.S_ .f32 0x00000000#32)) e = 1#1) : (0 : EReal) ≤ I e := by
  rw [ValueIdx.cmpf_apply, Ideal.cmpf_def, ValueIdx.broadcastInDim_scalar_apply, ValueIdx.constant_apply,
    Ideal.ofBits_zero_f32] at h
  exact le_of_cmp_oge h

/-- An entry compared "at most" against the broadcast word of 255. -/
theorem entry_le_255 (I : FVec Ideal Cert.Pre_finite_inputs.S2x256x256x256 .f32)
    (e : Cert.Pre_finite_inputs.S2x256x256x256.Idx)
    (h : cmpf .ole I (broadcastInDim Cert.Pre_finite_inputs.S2x256x256x256 ![] hb
      (constant (F := Ideal) Cert.Pre_finite_inputs.S_ .f32 0x437F0000#32)) e = 1#1) :
    I e ≤ ((255 : ℝ) : EReal) := by
  rw [ValueIdx.cmpf_apply, Ideal.cmpf_def, ValueIdx.broadcastInDim_scalar_apply, ValueIdx.constant_apply,
    c255] at h
  exact le_of_cmp_ole h

/-- Under the precondition both volumes are binned. -/
theorem binned_of_pre (I J : FVec Ideal Cert.Pre_finite_inputs.S2x256x256x256 .f32)
    (h : Cert.Pre_finite_inputs.fn (F := Ideal) I J = fun _ => 1#1) : Binned I ∧ Binned J := by
  have h0 := congrFun h ValueIdx.ix0
  dsimp only [Cert.Pre_finite_inputs.fn, Cert.Pre_finite_inputs.fn_part1, andi] at h0
  simp only [IntOp.andi_eq_one] at h0
  obtain ⟨⟨⟨⟨⟨_, _⟩, hI0⟩, hI1⟩, hJ0⟩, hJ1⟩ := h0
  refine ⟨binned_of_range I fun e => ⟨?_, ?_⟩, binned_of_range J fun e => ⟨?_, ?_⟩⟩
  · exact entry_ge_zero _ I e (Host.reduce_andi_all _ _ _ _ _ hI0 e)
  · exact entry_le_255 _ I e (Host.reduce_andi_all _ _ _ _ _ hI1 e)
  · exact entry_ge_zero _ J e (Host.reduce_andi_all _ _ _ _ _ hJ0 e)
  · exact entry_le_255 _ J e (Host.reduce_andi_all _ _ _ _ _ hJ1 e)

end Cert.Hist

end
-- ==== Proof.lean ====
/-
  The joint-histogram kernel against its scatter-add reference.

  Both programs quantise two volumes of 2·256³ intensities to 32 bins each (round-half-even of x / 255 · 31),
  count the voxels per pair of bins into a 32 × 32 joint histogram, and read a mutual-information score out of
  it (Proof/HistSpec.lean states the quantiser, the histogram and the read-out).

  The kernel tiles the volumes, reshaped to [4096, 8192], into 512 blocks of 8 rows; each grid point turns its
  two blocks into stacks of one-hot rows and multiplies them, which counts the block's voxels per bin pair, and
  adds that to an accumulator carried from point to point; each of the two cores writes its accumulator out
  after its 256 points and the host adds the two.  Since every voxel lies in exactly one row of one block, that
  sum is the joint histogram — for any inputs (Proof/KPieces, KTile, KAccum, KRun, KResult).

  The reference adds 1 at the flat position 32·(bin of I) + (bin of J) of a 1024-entry table, voxel by voxel.
  That is the same count exactly when both quantised values are integers 0 … 31, where the flat position
  determines the pair; intensities in [0, 255] — the precondition — guarantee it (Proof/HistBins, PreBinned,
  RefHistTail, RefHistScatter, RefHistVoxel, RefHistEq).
-/
import proofs.«102625_j87789131530707_2_alg».proof.Defs
import proofs.«102625_j87789131530707_2_alg».proof.Proof.Gen.Kernel
import proofs.«102625_j87789131530707_2_alg».proof.Proof.Gen.Kernel.Skeleton
import proofs.«102625_j87789131530707_2_alg».proof.Proof.Gen.Kernel.Launch
import proofs.«102625_j87789131530707_2_alg».proof.Proof.Gen.Kernel.Points
import proofs.«102625_j87789131530707_2_alg».proof.Proof.Gen.Kernel.Frame
import proofs.«102625_j87789131530707_2_alg».proof.Proof.Gen.KernelIdeal
import proofs.«102625_j87789131530707_2_alg».proof.Proof.Gen.KernelIdeal.Skeleton
import proofs.«102625_j87789131530707_2_alg».proof.Proof.Gen.KernelIdeal.Launch
import proofs.«102625_j87789131530707_2_alg».proof.Proof.Gen.KernelIdeal.Points
import proofs.«102625_j87789131530707_2_alg».proof.Proof.Gen.KernelIdeal.Frame
import proofs.«102625_j87789131530707_2_alg».proof.Proof.Gen.ReferenceIdeal
import proofs.«102625_j87789131530707_2_alg».proof.Proof.Gen.Pre_finite_inputs
import proofs.«102625_j87789131530707_2_alg».proof.Proof.KResult
import proofs.«102625_j87789131530707_2_alg».proof.Proof.RefHistEq
import proofs.«102625_j87789131530707_2_alg».proof.Proof.PreBinned
import Idealize.ShloMosaic.Adequacy
import Idealize.ShloMosaic.Init

noncomputable section

namespace Cert.Proof

open Idealize.ShloMosaic Idealize.ShloMosaic.TcCoe Idealize.SL.Sem

/-- The kernel as printed runs and leaves its two volumes as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, with its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals both programs end at the read-out of the joint histogram of the two volumes: the
    kernel for any inputs, the reference because intensities in [0, 255] quantise to the integers 0 … 31. -/
theorem algebraic : Cert.algebraic_KernelIdeal_ReferenceIdeal := by
  intro m ρ m' ρ' hpre hagree
  have hb : ∀ c : Dev Cert.KernelIdeal.nD,
      Cert.Hist.Binned (m ((c.tc : Thread Cert.KernelIdeal.nD Cert.KernelIdeal.τ).loc Cert.KernelIdeal.main_arg0))
      ∧ Cert.Hist.Binned (m ((c.tc : Thread Cert.KernelIdeal.nD Cert.KernelIdeal.τ).loc Cert.KernelIdeal.main_arg1)) :=
    fun c => Cert.Hist.binned_of_pre _ _ (hpre c)
  refine ⟨fun c => Cert.Hist.tail (Cert.Hist.hist
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.KValue.run m ρ, ?_⟩
  refine (θ_run Cert.ReferenceIdeal.defs _ _).mono (fun _ h c => ⟨(h c).1.trans ?_, (h c).2⟩)
    (Cert.ReferenceIdeal.RefValue.run m' ρ'
      (fun c => by rw [(hagree c).1]; exact (hb c).1) (fun c => by rw [(hagree c).2]; exact (hb c).2))
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
